-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x1024x384 : Shape := ⟨4, ![32, 4, 1024, 384]⟩
abbrev S384x769 : Shape := ⟨2, ![384, 769]⟩
abbrev S769 : Shape := ⟨1, ![769]⟩
abbrev S384x384 : Shape := ⟨2, ![384, 384]⟩
abbrev S384 : Shape := ⟨1, ![384]⟩
abbrev S_ : Shape := ⟨0, ![]⟩

class Facts : Prop where
  bcast_S_S32x4x1024x384 : S_.BroadcastsInDim S32x4x1024x384 (![] : Fin 0 → Fin S32x4x1024x384.rank)
  reducesTo_S32x4x1024x384_S_d0_1_2_3 : S32x4x1024x384.ReducesTo [0, 1, 2, 3] S_
  h_S_ : 0 < S_.numel
  bcast_S_S384x769 : S_.BroadcastsInDim S384x769 (![] : Fin 0 → Fin S384x769.rank)
  reducesTo_S384x769_S_d0_1 : S384x769.ReducesTo [0, 1] S_
  bcast_S_S769 : S_.BroadcastsInDim S769 (![] : Fin 0 → Fin S769.rank)
  reducesTo_S769_S_d0 : S769.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S32x4x1024x384 .f32) (main_arg1 : FVec F S384x769 .f32) (main_arg2 : FVec F S769 .f32) (main_arg3 : FVec F S384x384 .f32) (main_arg4 : FVec F S384 .f32) : IVec S_ 1 :=
  let main_v0 : FVec F S32x4x1024x384 .f32 := Host.absf main_arg0
  let main_cst : FVec F S_ .f32 := constant S_ .f32 0x7F800000#32
  let main_v1 : FVec F S32x4x1024x384 .f32 := broadcastInDim S32x4x1024x384 ![] bcast_S_S32x4x1024x384 main_cst
  let main_v2 : IVec S32x4x1024x384 1 := cmpf .olt main_v0 main_v1
  let main_c : IVec S_ 1 := constantI S_ 1 1#1
  let main_v3 : IVec S_ 1 := (fun x v => Host.reduce IntOp.andi x v reducesTo_S32x4x1024x384_S_d0_1_2_3 h_S_) main_v2 main_c
  let main_v4 : FVec F S384x769 .f32 := Host.absf main_arg1
  let main_cst_0 : FVec F S_ .f32 := constant S_ .f32 0x7F800000#32
  let main_v5 : FVec F S384x769 .f32 := broadcastInDim S384x769 ![] bcast_S_S384x769 main_cst_0
  let main_v6 : IVec S384x769 1 := cmpf .olt main_v4 main_v5
  let main_c_1 : IVec S_ 1 := constantI S_ 1 1#1
  let main_v7 : IVec S_ 1 := (fun x v => Host.reduce IntOp.andi x v reducesTo_S384x769_S_d0_1 h_S_) main_v6 main_c_1
  let main_v8 : IVec S_ 1 := andi main_v3 main_v7
  let main_v9 : FVec F S769 .f32 := Host.absf main_arg2
  let main_cst_2 : FVec F S_ .f32 := constant S_ .f32 0x7F800000#32
  let main_v10 : FVec F S769 .f32 := broadcastInDim S769 ![] bcast_S_S769 main_cst_2
  let main_v11 : IVec S769 1 := cmpf .olt main_v9 main_v10
  let main_c_3 : IVec S_ 1 := constantI S_ 1 1#1
  let main_v12 : IVec S_ 1 := (fun x v => Host.reduce IntOp.andi x v reducesTo_S769_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S32x4x1024x384 : Shape := ⟨4, ![32, 4, 1024, 384]⟩
abbrev S384x769 : Shape := ⟨2, ![384, 769]⟩
abbrev S769 : Shape := ⟨1, ![769]⟩
abbrev S384x384 : Shape := ⟨2, ![384, 384]⟩
abbrev S384 : Shape := ⟨1, ![384]⟩
abbrev S384x768 : Shape := ⟨2, ![384, 768]⟩
abbrev S768 : Shape := ⟨1, ![768]⟩
abbrev S1x384 : Shape := ⟨2, ![1, 384]⟩
abbrev S128x1024x384 : Shape := ⟨3, ![128, 1024, 384]⟩
abbrev S4x1024x384 : Shape := ⟨3, ![4, 1024, 384]⟩
abbrev S4096x384 : Shape := ⟨2, ![4096, 384]⟩
abbrev S4x384 : Shape := ⟨2, ![4, 384]⟩
abbrev S4x1x384 : Shape := ⟨3, ![4, 1, 384]⟩

abbrev nBuf : Space → Nat
  | .hbm => 17
  | .vmem => 10
  | .smem => 0
  | _ => 0

abbrev bufTy : (tb : Table) → Fin (tcTables nBuf tb) → BufTy
  | .hbm, ⟨0, _⟩ => ⟨S32x4x1024x384, .f32⟩
  | .hbm, ⟨1, _⟩ => ⟨S384x769, .f32⟩
  | .hbm, ⟨2, _⟩ => ⟨S769, .f32⟩
  | .hbm, ⟨3, _⟩ => ⟨S384x384, .f32⟩
  | .hbm, ⟨4, _⟩ => ⟨S384, .f32⟩
  | .hbm, ⟨5, _⟩ => ⟨S384x768, .f32⟩
  | .hbm, ⟨6, _⟩ => ⟨S768, .f32⟩
  | .hbm, ⟨7, _⟩ => ⟨S384x384, .f32⟩
  | .hbm, ⟨8, _⟩ => ⟨S384x384, .f32⟩
  | .hbm, ⟨9, _⟩ => ⟨S384, .f32⟩
  | .hbm, ⟨10, _⟩ => ⟨S1x384, .f32⟩
  | .hbm, ⟨11, _⟩ => ⟨S384, .f32⟩
  | .hbm, ⟨12, _⟩ => ⟨S1x384, .f32⟩
  | .hbm, ⟨13, _⟩ => ⟨S1x384, .f32⟩
  | .hbm, ⟨14, _⟩ => ⟨S128x1024x384, .f32⟩
  | .hbm, ⟨15, _⟩ => ⟨S128x1024x384, .f32⟩
  | .hbm, ⟨16, _⟩ => ⟨S32x4x1024x384, .f32⟩
  | .local _ .vmem, ⟨0, _⟩ => ⟨S4x1024x384, .f32⟩
  | .local _ .vmem, ⟨1, _⟩ => ⟨S4x1024x384, .f32⟩
  | .local _ .vmem, ⟨2, _⟩ => ⟨S384x384, .f32⟩
  | .local _ .vmem, ⟨3, _⟩ => ⟨S1x384, .f32⟩
  | .local _ .vmem, ⟨4, _⟩ => ⟨S384x384, .f32⟩
  | .local _ .vmem, ⟨5, _⟩ => ⟨S1x384, .f32⟩
  | .local _ .vmem, ⟨6, _⟩ => ⟨S384x384, .f32⟩
  | .local _ .vmem, ⟨7, _⟩ => ⟨S1x384, .f32⟩
  | .local _ .vmem, ⟨8, _⟩ => ⟨S4x1024x384, .f32⟩
  | .local _ .vmem, ⟨9, _⟩ => ⟨S4x1024x384, .f32⟩
  | _, _ => ⟨S32x4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S384x769_S384x768_0_1 : S384x769.Slices ![0, 1] S384x768
  slices_S769_S768_1 : S769.Slices ![1] S768
  slices_S384x768_S384x384_0_0 : S384x768.Slices ![0, 0] S384x384
  slices_S384x768_S384x384_0_384 : S384x768.Slices ![0, 384] S384x384
  slices_S768_S384_0 : S768.Slices ![0] S384
  shapeCasts_S384_S1x384 : S384.ShapeCasts S1x384
  slices_S768_S384_384 : S768.Slices ![384] S384
  shapeCasts_S32x4x1024x384_S128x1024x384 : S32x4x1024x384.ShapeCasts S128x1024x384
  inb_S4x1024x384_S4x1024x384_0_0_0 : ∀ a, (![0, 0, 0] : Fin 3 → Nat) a + S4x1024x384.size a ≤ S4x1024x384.size a
  h_S4x1024x384 : 0 < S4x1024x384.numel
  shapeCasts_S4x1024x384_S4x1024x384 : S4x1024x384.ShapeCasts S4x1024x384
  shapeCasts_S4x1024x384_S4096x384 : S4x1024x384.ShapeCasts S4096x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  shapeCasts_S4096x384_S4x1024x384 : S4096x384.ShapeCasts S4x1024x384
  reduces_S4x1024x384_S4x384 : S4x1024x384.Reduces [1] S4x384
  shapeCasts_S4x384_S4x1x384 : S4x384.ShapeCasts S4x1x384
  broadcasts_S4x1x384_S4x1024x384 : S4x1x384.Broadcasts S4x1024x384
  shapeCasts_S128x1024x384_S32x4x1024x384 : S128x1024x384.ShapeCasts S32x4x1024x384
  dot_S4096x384_S384x384_S4096x384_1_0_0_1_n_n_wf : DotDims.WF S4096x384 S384x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x384.size a ≤ S128x1024x384.size a
  hwx0_0 : ∀ i : grid0.Coords, EltTy.bits .f32 = 32 ∨ (Rect.block (s := S128x1024x384) S4x1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .f32 = 32 ∨ (Rect.block (s := S384x384) S384x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1024x384.size a ≤ S128x1024x384.size a
  hwx0_7 : ∀ i : grid0.Coords, EltTy.bits .f32 = 32 ∨ (Rect.block (s := S128x1024x384) S4x1024x384.size (cc0_transform_7 i) (hinb0_7 i)).WholeWords (EltTy.packing .f32)

variable [Facts₀]

def dot_S4096x384_S384x384_S4096x384_1_0_0_1_n_n : DotDims S4096x384 S384x384 S4096x384 where
  lhsContracting := [1]
  rhsContracting := [0]
  lhsNonContracting := [0]
  rhsNonContracting := [1]
  lhsBatch := []
  rhsBatch := []
  wf := dot_S4096x384_S384x384_S4096x384_1_0_0_1_n_n_wf

abbrev win0_0 : Pipeline.Window sig grid0 :=
  Pipeline.Window.ofSpec (Memref.whole main_v9) S4x1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S4x1024x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x4x1024x384 : Shape := ⟨4, ![32, 4, 1024, 384]⟩
abbrev S384x769 : Shape := ⟨2, ![384, 769]⟩
abbrev S769 : Shape := ⟨1, ![769]⟩
abbrev S384x384 : Shape := ⟨2, ![384, 384]⟩
abbrev S384 : Shape := ⟨1, ![384]⟩
abbrev S32x4x1024x769 : Shape := ⟨4, ![32, 4, 1024, 769]⟩
abbrev S1x1x1x769 : Shape := ⟨4, ![1, 1, 1, 769]⟩
abbrev S32x4x1024x1 : Shape := ⟨4, ![32, 4, 1024, 1]⟩
abbrev S_ : Shape := ⟨0, ![]⟩
abbrev S32x4x1024 : Shape := ⟨3, ![32, 4, 1024]⟩
abbrev S32x4x384 : Shape := ⟨3, ![32, 4, 384]⟩
abbrev S32x4x1x384 : Shape := ⟨4, ![32, 4, 1, 384]⟩
abbrev S1x1x1x384 : Shape := ⟨4, ![1, 1, 1, 384]⟩

abbrev nBuf : Space → Nat
  | .hbm => 38
  | .vmem => 0
  | .smem => 0
  | _ => 0

abbrev bufTy : (tb : Table) → Fin (tcTables nBuf tb) → BufTy
  | .hbm, ⟨0, _⟩ => ⟨S32x4x1024x384, .f32⟩
  | .hbm, ⟨1, _⟩ => ⟨S384x769, .f32⟩
  | .hbm, ⟨2, _⟩ => ⟨S769, .f32⟩
  | .hbm, ⟨3, _⟩ => ⟨S384x384, .f32⟩
  | .hbm, ⟨4, _⟩ => ⟨S384, .f32⟩
  | .hbm, ⟨5, _⟩ => ⟨S32x4x1024x769, .f32⟩
  | .hbm, ⟨6, _⟩ => ⟨S1x1x1x769, .f32⟩
  | .hbm, ⟨7, _⟩ => ⟨S32x4x1024x769, .f32⟩
  | .hbm, ⟨8, _⟩ => ⟨S32x4x1024x769, .f32⟩
  | .hbm, ⟨9, _⟩ => ⟨S32x4x1024x1, .f32⟩
  | .hbm, ⟨10, _⟩ => ⟨S32x4x1024x384, .f32⟩
  | .hbm, ⟨11, _⟩ => ⟨S32x4x1024x384, .f32⟩
  | .hbm, ⟨12, _⟩ => ⟨S_, .f32⟩
  | .hbm, ⟨13, _⟩ => ⟨S32x4x1024, .f32⟩
  | .hbm, ⟨14, _⟩ => ⟨S_, .f32⟩
  | .hbm, ⟨15, _⟩ => ⟨S32x4x1024, .f32⟩
  | .hbm, ⟨16, _⟩ => ⟨S32x4x1024, .f32⟩
  | .hbm, ⟨17, _⟩ => ⟨S32x4x1024x1, .f32⟩
  | .hbm, ⟨18, _⟩ => ⟨S32x4x1024x1, .f32⟩
  | .hbm, ⟨19, _⟩ => ⟨S32x4x1024x1, .f32⟩
  | .hbm, ⟨20, _⟩ => ⟨S_, .f32⟩
  | .hbm, ⟨21, _⟩ => ⟨S32x4x1024, .f32⟩
  | .hbm, ⟨22, _⟩ => ⟨S32x4x1024x1, .f32⟩
  | .hbm, ⟨23, _⟩ => ⟨S32x4x1024x1, .f32⟩
  | .hbm, ⟨24, _⟩ => ⟨S32x4x1024x384, .f32⟩
  | .hbm, ⟨25, _⟩ => ⟨S32x4x1024x384, .f32⟩
  | .hbm, ⟨26, _⟩ => ⟨S_, .f32⟩
  | .hbm, ⟨27, _⟩ => ⟨S32x4x384, .f32⟩
  | .hbm, ⟨28, _⟩ => ⟨S32x4x1x384, .f32⟩
  | .hbm, ⟨29, _⟩ => ⟨S_, .f32⟩
  | .hbm, ⟨30, _⟩ => ⟨S32x4x1024x384, .f32⟩
  | .hbm, ⟨31, _⟩ => ⟨S32x4x1024x384, .f32⟩
  | .hbm, ⟨32, _⟩ => ⟨S32x4x1024x384, .f32⟩
  | .hbm, ⟨33, _⟩ => ⟨S32x4x1024x384, .f32⟩
  | .hbm, ⟨34, _⟩ => ⟨S32x4x1024x384, .f32⟩
  | .hbm, ⟨35, _⟩ => ⟨S1x1x1x384, .f32⟩
  | .hbm, ⟨36, _⟩ => ⟨S32x4x1024x384, .f32⟩
  | .hbm, ⟨37, _⟩ => ⟨S32x4x1024x384, .f32⟩
  | _, _ => ⟨S32x4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S769_S1x1x1x769_3 : S769.BroadcastsInDim S1x1x1x769 (![3] : Fin 1 → Fin S1x1x1x769.rank)
  bcast_S1x1x1x769_S32x4x1024x769_0_1_2_3 : S1x1x1x769.BroadcastsInDim S32x4x1024x769 (![0, 1, 2, 3] : Fin 4 → Fin S32x4x1024x769.rank)
  slices_S32x4x1024x769_S32x4x1024x1_0_0_0_0 : S32x4x1024x769.Slices ![0, 0, 0, 0] S32x4x1024x1
  slices_S32x4x1024x769_S32x4x1024x384_0_0_0_1 : S32x4x1024x769.Slices ![0, 0, 0, 1] S32x4x1024x384
  slices_S32x4x1024x769_S32x4x1024x384_0_0_0_385 : S32x4x1024x769.Slices ![0, 0, 0, 385] S32x4x1024x384
  reducesTo_S32x4x1024x1_S32x4x1024_d3 : S32x4x1024x1.ReducesTo [3] S32x4x1024
  h_S_ : 0 < S_.numel
  bcast_S_S32x4x1024 : S_.BroadcastsInDim S32x4x1024 (![] : Fin 0 → Fin S32x4x1024.rank)
  bcast_S32x4x1024_S32x4x1024x1_0_1_2 : S32x4x1024.BroadcastsInDim S32x4x1024x1 (![0, 1, 2] : Fin 3 → Fin S32x4x1024x1.rank)
  bcast_S32x4x1024x1_S32x4x1024x384_0_1_2_3 : S32x4x1024x1.BroadcastsInDim S32x4x1024x384 (![0, 1, 2, 3] : Fin 4 → Fin S32x4x1024x384.rank)
  reducesTo_S32x4x1024x384_S32x4x384_d2 : S32x4x1024x384.ReducesTo [2] S32x4x384
  bcast_S32x4x384_S32x4x1x384_0_1_3 : S32x4x384.BroadcastsInDim S32x4x1x384 (![0, 1, 3] : Fin 3 → Fin S32x4x1x384.rank)
  bcast_S_S32x4x1024x384 : S_.BroadcastsInDim S32x4x1024x384 (![] : Fin 0 → Fin S32x4x1024x384.rank)
  bcast_S32x4x1x384_S32x4x1024x384_0_1_2_3 : S32x4x1x384.BroadcastsInDim S32x4x1024x384 (![0, 1, 2, 3] : Fin 4 → Fin S32x4x1024x384.rank)
  bcast_S384_S1x1x1x384_3 : S384.BroadcastsInDim S1x1x1x384 (![3] : Fin 1 → Fin S1x1x1x384.rank)
  bcast_S1x1x1x384_S32x4x1024x384_0_1_2_3 : S1x1x1x384.BroadcastsInDim S32x4x1024x384 (![0, 1, 2, 3] : Fin 4 → Fin S32x4x1024x384.rank)
  dot_S32x4x1024x384_S384x769_S32x4x1024x769_3_0_012_1_n_n_wf : DotDims.WF S32x4x1024x384 S384x769 S32x4x1024x769 [3] [0] [0, 1, 2] [1] [] []
  dot_S32x4x1024x384_S384x384_S32x4x1024x384_3_0_012_1_n_n_wf : DotDims.WF S32x4x1024x384 S384x384 S32x4x1024x384 [3] [0] [0, 1, 2] [1] [] []

variable [Facts₀]

def dot_S32x4x1024x384_S384x769_S32x4x1024x769_3_0_012_1_n_n : DotDims S32x4x1024x384 S384x769 S32x4x1024x769 where
  lhsContracting := [3]
  rhsContracting := [0]
  lhsNonContracting := [0, 1, 2]
  rhsNonContracting := [1]
  lhsBatch := []
  rhsBatch := []
  wf := dot_S32x4x1024x384_S384x769_S32x4x1024x769_3_0_012_1_n_n_wf
def dot_S32x4x1024x384_S384x384_S32x4x1024x384_3_0_012_1_n_n : DotDims S32x4x1024x384 S384x384 S32x4x1024x384 where
  lhsContracting := [3]
  rhsContracting := [0]
  lhsNonContracting := [0, 1, 2]
  rhsNonContracting := [1]
  lhsBatch := []
  rhsBatch := []
  wf := dot_S32x4x1024x384_S384x384_S32x4x1024x384_3_0_012_1_n_n_wf

class Facts : Prop extends Facts₀ where

variable [Facts]
-- ==== Proof.Spec.lean ====
/-
  The mathematics of the gated context projection, stated once over coordinate functions.

  A group is 1024 rows of 384 channels. Each row is projected twice (a "key" and a "value" projection: the row's dot
  product with a weight column, plus that column's bias). The key projections are summed over the group's rows, giving one
  context number per channel; a row's value projection, clipped below at zero, is multiplied by the channel's context;
  the gated row is projected once more. The kernel computes this four groups at a time from sliced weights; the reference
  computes it from the fused weight array, after multiplying every key by a softmax over a single entry, which is one.
-/
import Idealize.ShloMosaic.PureOps.Ideal
import Idealize.ShloMosaic.Lib.ValueIdx

noncomputable section

namespace Cert.GatedContext

open Idealize.ShloMosaic Idealize.ShloMosaic.ValueIdx

/-- A row's projection on one output channel: the dot product with the channel's weight column, plus the channel's bias. -/
def proj (X : Fin 384 → EReal) (W : Fin 384 → EReal) (b : EReal) : EReal := (∑ c : Fin 384, X c * W c) + b

/-- One group's output at row `n`, channel `d`: over the inner channels `j`, the row's value projection clipped below at zero,
    times the sum over the group's rows of the key projections, times the output weight; plus the output bias. -/
def groupOut (X : Fin 1024 → Fin 384 → EReal) (Wk Wv Wp : Fin 384 → Fin 384 → EReal) (Bk Bv Bp : Fin 384 → EReal)
    (n : Fin 1024) (d : Fin 384) : EReal :=
  (∑ j : Fin 384, (max (proj (X n) (fun c => Wv c j) (Bv j)) 0
      * ∑ n' : Fin 1024, proj (X n') (fun c => Wk c j) (Bk j)) * Wp j d) + Bp d

abbrev SX : Shape := ⟨4, ![32, 4, 1024, 384]⟩
abbrev SW : Shape := ⟨2, ![384, 769]⟩
abbrev SB : Shape := ⟨1, ![769]⟩
abbrev SP : Shape := ⟨2, ![384, 384]⟩
abbrev SC : Shape := ⟨1, ![384]⟩

/-- The fused weight's column of key channel `j`: column 0 is the query's, the 384 key columns follow. -/
def keyCol (j : Fin 384) : Fin 769 := ⟨1 + j.val, by have := j.isLt; omega⟩
/-- The fused weight's column of value channel `j`: after the query's column and the 384 key columns. -/
def valCol (j : Fin 384) : Fin 769 := ⟨385 + j.val, by have := j.isLt; omega⟩

/-- The whole result as a function of the five argument arrays: entry (b, p, n, d) is group (b, p)'s output at row `n`,
    channel `d`, the key and value weights and biases read out of the fused arrays. -/
def G (x : SX.Idx → EReal) (w : SW.Idx → EReal) (bq : SB.Idx → EReal) (wp : SP.Idx → EReal) (bp : SC.Idx → EReal) :
    SX.Idx → EReal := fun i =>
  groupOut (fun n c => x (ix4 (i 0) (i 1) n c)) (fun c j => w (ix2 c (keyCol j))) (fun c j => w (ix2 c (valCol j)))
    (fun j d => wp (ix2 j d)) (fun j => bq (ix1 (keyCol j))) (fun j => bq (ix1 (valCol j))) (fun d => bp (ix1 d)) (i 2) (i 3)

end Cert.GatedContext

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«181809_j78065325572222_2_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.LibGroups.lean ====
/-
  Arrays of row groups read at an index (generic in the extents): a stack of `a` groups of `b` rows re-laid as one array of
  `a·b` rows, and back; a per-group row re-laid with a unit row axis (the keepdims form of a sum over the rows) and
  that unit axis broadcast back over the group's rows.
-/
import Idealize.ShloMosaic.Lib.ValueIdx
import Idealize.ShloMosaic.Lib.Pipeline.Value

namespace Cert.Lib.Groups

open Idealize.ShloMosaic Idealize.ShloMosaic.ValueIdx

variable {α : Type}

/-- A stack of `a` groups of `b` rows re-laid as `m = a·b` rows: row `g·b + n` is row `n` of group `g`. -/
theorem shapeCast_merge_apply {a b c m : Nat} (v : (⟨3, ![a, b, c]⟩ : Shape).Idx → α)
    (h : (⟨3, ![a, b, c]⟩ : Shape).ShapeCasts ⟨2, ![m, c]⟩) (r : Fin m) (g : Fin a) (n : Fin b) (q : Fin c)
    (hr : r.val = g.val * b + n.val) :
    shapeCast ⟨2, ![m, c]⟩ v h (ix2 r q) = v (ix3 g n q) := by
  refine shapeCast_apply v h (ix2 r q) (ix3 g n q) ?_
  rw [Shape.rowMajor_val_three, Shape.rowMajor_val_two]
  show (g.val * b + n.val) * c + q.val = r.val * c + q.val
  rw [hr]

/-- `m = a·b` rows re-laid as `a` groups of `b` rows: row `n` of group `g` is row `g·b + n`. -/
theorem shapeCast_split_apply {a b c m : Nat} (u : (⟨2, ![m, c]⟩ : Shape).Idx → α)
    (h : (⟨2, ![m, c]⟩ : Shape).ShapeCasts ⟨3, ![a, b, c]⟩) (r : Fin m) (g : Fin a) (n : Fin b) (q : Fin c)
    (hr : r.val = g.val * b + n.val) :
    shapeCast ⟨3, ![a, b, c]⟩ u h (ix3 g n q) = u (ix2 r q) := by
  refine shapeCast_apply u h (ix3 g n q) (ix2 r q) ?_
  rw [Shape.rowMajor_val_three, Shape.rowMajor_val_two]
  show r.val * c + q.val = (g.val * b + n.val) * c + q.val
  rw [hr]

/-- One row per group re-laid with a unit row axis reads the group's row. -/
theorem shapeCast_unitRow_apply {a c : Nat} (v : (⟨2, ![a, c]⟩ : Shape).Idx → α)
    (h : (⟨2, ![a, c]⟩ : Shape).ShapeCasts ⟨3, ![a, 1, c]⟩) (g : Fin a) (u : Fin 1) (q : Fin c) :
    shapeCast ⟨3, ![a, 1, c]⟩ v h (ix3 g u q) = v (ix2 g q) := by
  refine shapeCast_apply v h (ix3 g u q) (ix2 g q) ?_
  rw [Shape.rowMajor_val_three, Shape.rowMajor_val_two]
  show g.val * c + q.val = (g.val * 1 + u.val) * c + q.val
  have hu : u.val = 0 := by have := u.isLt; omega
  rw [hu, Nat.mul_one, Nat.add_zero]

/-- A unit row axis broadcast over the `b` rows of each group reads the group's one row. -/
theorem broadcastTo_unitRow_apply {a b c : Nat} (v : (⟨3, ![a, 1, c]⟩ : Shape).Idx → α)
    (h : (⟨3, ![a, 1, c]⟩ : Shape).Broadcasts ⟨3, ![a, b, c]⟩) (g : Fin a) (n : Fin b) (q : Fin c) :
    broadcastTo ⟨3, ![a, b, c]⟩ v h (ix3 g n q) = v (ix3 g 0 q) := by
  refine broadcastTo_apply v h (ix3 g n q) (ix3 g 0 q) fun x => ?_
  match x with
  | ⟨0, _⟩ =>
    show g.val = if a = 1 then 0 else g.val
    split
    · have := g.isLt; omega
    · rfl
  | ⟨1, _⟩ => exact (if_pos rfl).symm
  | ⟨2, _⟩ =>
    show q.val = if c = 1 then 0 else q.val
    split
    · have := q.isLt; omega
    · rfl

end Cert.Lib.Groups
-- ==== Proof.BlockValue.lean ====
/-
  What the kernel body stores, read at an index.

  The body loads a block of four groups (4 × 1024 rows of 384 channels), the key, value and output weights (384 × 384 each)
  and their biases (one row of 384 each). It lays the four groups end to end as 4096 rows, multiplies them by the key and the
  value weights and adds the bias rows, lays the 4096 rows back as four groups, sums each group's key rows, clips the value
  rows below at zero and multiplies them by their group's sum, lays the result as 4096 rows again, multiplies by the output
  weight, adds the output bias and lays the rows back as four groups. Read at group `g`, row `n`, channel `d` that is the
  group's output of the specification, over the block's entries.
-/
import proofs.«181809_j78065325572222_2_alg».proof.Proof.Gen.KernelIdeal.Skeleton
import proofs.«181809_j78065325572222_2_alg».proof.Proof.Spec
import proofs.«181809_j78065325572222_2_alg».proof.Proof.LibDot2
import proofs.«181809_j78065325572222_2_alg».proof.Proof.LibRows
import proofs.«181809_j78065325572222_2_alg».proof.Proof.LibGroups
import Idealize.ShloMosaic.PureOps.Ideal.Laws

noncomputable section

namespace Cert.KernelIdeal.BlockValue

open Idealize.ShloMosaic Idealize.ShloMosaic.ValueIdx Cert.KernelIdeal Cert.KernelIdeal.Gen Cert.GatedContext

/-- Row `n` of group `g` among the block's 4096 rows laid end to end. -/
def row (g : Fin 4) (n : Fin 1024) : Fin 4096 := ⟨g.val * 1024 + n.val, by have := g.isLt; have := n.isLt; omega⟩

/-- A product of the 4096 rows with a 384 × 384 weight, into a zero accumulator: the row's dot product with the column. -/
theorem matmul_at (L : FVec Ideal S4096x384 .f32) (W : FVec Ideal S384x384 .f32) (r : Fin 4096) (j : Fin 384) :
    matmul dot_S4096x384_S384x384_S4096x384_1_0_0_1_n_n (some .fp32) L W (constant (F := Ideal) S4096x384 .f32 0x00000000#32) (ix2 r j)
      = ∑ c : Fin 384, L (ix2 r c) * W (ix2 c j) :=
  Cert.Lib.DotSum.matmul_zero_at dot_S4096x384_S384x384_S4096x384_1_0_0_1_n_n rfl rfl rfl rfl rfl rfl (some .fp32) L W r j

/-- A bias row laid under the 4096 rows reads the bias at the channel. -/
theorem bias_at (B : FVec Ideal S1x384 .f32) (h1 : S1x384.ShapeCasts S1x384) (h2 : S1x384.Broadcasts S4096x384)
    (r : Fin 4096) (j : Fin 384) :
    broadcastTo S4096x384 (shapeCast S1x384 B h1) h2 (ix2 r j) = B (ix2 0 j) := by
  rw [shapeCast_self]
  exact Cert.Lib.Rows.broadcastTo_row_apply B h2 r j

/-- One projection of the block, laid back as four groups, at group `g`, row `n`, channel `j`: the row's projection. -/
theorem proj_at (v0 : FVec Ideal S4x1024x384 .f32) (W : FVec Ideal S384x384 .f32) (B : FVec Ideal S1x384 .f32)
    (h0 : S4x1024x384.ShapeCasts S4x1024x384) (h1 : S4x1024x384.ShapeCasts S4096x384) (h2 : S384x384.ShapeCasts S384x384)
    (h3 : S1x384.ShapeCasts S1x384) (h4 : S1x384.Broadcasts S4096x384) (h5 : S4096x384.ShapeCasts S4x1024x384)
    (g : Fin 4) (n : Fin 1024) (j : Fin 384) :
    shapeCast S4x1024x384 (addf (matmul dot_S4096x384_S384x384_S4096x384_1_0_0_1_n_n (some .fp32)
        (shapeCast S4096x384 (shapeCast S4x1024x384 v0 h0) h1) (shapeCast S384x384 W h2)
        (constant (F := Ideal) S4096x384 .f32 0x00000000#32)) (broadcastTo S4096x384 (shapeCast S1x384 B h3) h4)) h5 (ix3 g n j)
      = proj (fun c => v0 (ix3 g n c)) (fun c => W (ix2 c j)) (B (ix2 0 j)) := by
  rw [Cert.Lib.Groups.shapeCast_split_apply _ h5 (row g n) g n j rfl, addf_apply, matmul_at, bias_at, shapeCast_self, shapeCast_self]
  unfold proj
  refine congrArg (· + _) (Finset.sum_congr rfl fun c _ => congrArg (· * _) ?_)
  exact Cert.Lib.Groups.shapeCast_merge_apply v0 h1 (row g n) g n c rfl

/-- The sum over a group's rows, at group `g`, channel `j`. -/
theorem rowsum_at (K : FVec Ideal S4x1024x384 .f32) (h : S4x1024x384.Reduces [1] S4x384) (hφ : FKind.Formats .f32)
    (hacc : (0x00000000#32 : BitVec 32) = 0x00000000#32) (g : Fin 4) (j : Fin 384) :
    multiReduction .add [1] S4x384 K 0x00000000#32 h hφ hacc (ix2 g j) = ∑ n : Fin 1024, K (ix3 g n j) := by
  refine (Ideal.multiReduction_add_single K 0x00000000#32 h hφ hacc (ix2 g j)).trans ?_
  refine Finset.sum_congr rfl fun n _ => congrArg K ?_
  funext a
  apply Fin.ext
  match a with
  | ⟨0, _⟩ => rfl
  | ⟨1, _⟩ => rfl
  | ⟨2, _⟩ => rfl

/-- THE BODY'S STORED VALUE at group `g`, row `n`, channel `d` of the block is the group's output of the specification over the
    loaded blocks. -/
theorem pay_apply (v0 : Vec Ideal S4x1024x384 .f32) (v3 v5 : Vec Ideal S384x384 .f32) (v8 v13 : Vec Ideal S1x384 .f32)
    (v26 : Vec Ideal S384x384 .f32) (v28 : Vec Ideal S1x384 .f32) (g : Fin 4) (n : Fin 1024) (d : Fin 384) :
    k0_pay1 (F := Ideal) v0 v3 v5 v8 v13 v26 v28 (ix3 g n d)
      = groupOut (fun n' c => v0 (ix3 g n' c)) (fun c j => v3 (ix2 c j)) (fun c j => v5 (ix2 c j)) (fun j d' => v26 (ix2 j d'))
          (fun j => v8 (ix2 0 j)) (fun j => v13 (ix2 0 j)) (fun d' => v28 (ix2 0 d')) n d := by
  unfold k0_pay1
  dsimp only
  rw [Cert.Lib.Groups.shapeCast_split_apply _ _ (row g n) g n d rfl, addf_apply, matmul_at, bias_at]
  unfold groupOut
  refine congrArg (· + _) (Finset.sum_congr rfl fun j _ => congrArg (· * _) ?_)
  rw [Cert.Lib.Groups.shapeCast_merge_apply _ _ (row g n) g n j rfl, mulf_apply, maximumf_apply, proj_at, broadcast_apply,
    Cert.Lib.Groups.broadcastTo_unitRow_apply, Cert.Lib.Groups.shapeCast_unitRow_apply, rowsum_at]
  refine congrArg₂ (· * ·) (congrArg (max _) Ideal.ofBits_zero_f32) (Finset.sum_congr rfl fun n' _ => ?_)
  exact proj_at v0 v3 v8 _ _ _ _ _ _ g n' j

end Cert.KernelIdeal.BlockValue

end
-- ==== Proof.Entry.lean ====
/-
  What the region finds in its arrays: the host lines before the kernel call only re-lay and slice the arguments. The 32 × 4
  groups are laid as 128 groups; the fused weight loses the query's column and is cut into the key's and the value's 384
  columns; the fused bias likewise, each half laid as one row; the output bias is laid as one row.
-/
import proofs.«181809_j78065325572222_2_alg».proof.Proof.Gen.KernelIdeal.Frame
import proofs.«181809_j78065325572222_2_alg».proof.Proof.Spec
import proofs.«181809_j78065325572222_2_alg».proof.Proof.LibRows
import Idealize.ShloMosaic.Lib.StableHlo.Run
import Idealize.ShloMosaic.Lib.Pipeline.Value
import Idealize.ShloMosaic.Lib.ValueIdx

noncomputable section

namespace Cert.KernelIdeal.Entry

open Idealize.ShloMosaic Idealize.ShloMosaic.TcCoe Idealize.ShloMosaic.ValueIdx Idealize.SL.Sem
open Cert.KernelIdeal Cert.KernelIdeal.Gen Cert.GatedContext

variable (m : (ℓ : Loc nD τ sig) → Buf (Elt Ideal) ℓ)

/-- The groups as the region finds them: the argument's 32 × 4 groups laid as 128. -/
theorem groups_term (c : Dev nD) (h : S32x4x1024x384.ShapeCasts S128x1024x384) :
    (V m c main_v9 : S128x1024x384.Idx → EReal) = shapeCast S128x1024x384 (m ((c : Thread nD τ).loc main_arg0)) h := by
  show StableHlo.after hostOps0 (fun b => m (c, b)) (Proc.devRef .tc main_v9) = _
  after_results; rfl

/-- Group `4 b + p` of the 128 is group (b, p) of the argument. -/
theorem groups_at (c : Dev nD) (b : Fin 32) (p : Fin 4) (gg : Fin 128) (hg : gg.val = b.val * 4 + p.val) (n : Fin 1024) (ch : Fin 384) :
    (V m c main_v9 : S128x1024x384.Idx → EReal) (ix3 gg n ch) = (m ((c : Thread nD τ).loc main_arg0) : S32x4x1024x384.Idx → EReal) (ix4 b p n ch) := by
  refine (congrFun (groups_term m c shapeCasts_S32x4x1024x384_S128x1024x384) (ix3 gg n ch)).trans ?_
  refine shapeCast_apply _ _ (ix3 gg n ch) (ix4 b p n ch) ?_
  rw [Shape.rowMajor_val_four, Shape.rowMajor_val_three]
  show ((b.val * 4 + p.val) * 1024 + n.val) * 384 + ch.val = (gg.val * 1024 + n.val) * 384 + ch.val
  rw [hg]

/-- The key weight as the region finds it. -/
theorem wkey_term (c : Dev nD) (h1 : S384x769.Slices ![0, 1] S384x768) (h2 : S384x768.Slices ![0, 0] S384x384) :
    (V m c main_v2 : S384x384.Idx → EReal)
      = extractStridedSlice S384x384 ![0, 0] (extractStridedSlice S384x768 ![0, 1] (m ((c : Thread nD τ).loc main_arg1)) h1) h2 := by
  show StableHlo.after hostOps0 (fun b => m (c, b)) (Proc.devRef .tc main_v2) = _
  after_results

/-- The key weight's column `j` is the fused weight's key column `j`. -/
theorem wkey_at (c : Dev nD) (ch j : Fin 384) :
    (V m c main_v2 : S384x384.Idx → EReal) (ix2 ch j) = (m ((c : Thread nD τ).loc main_arg1) : S384x769.Idx → EReal) (ix2 ch (keyCol j)) := by
  refine (congrFun (wkey_term m c slices_S384x769_S384x768_0_1 slices_S384x768_S384x384_0_0) (ix2 ch j)).trans ?_
  refine (extractStridedSlice_apply ![0, 0] _ _ (ix2 ch j) (ix2 ch (⟨j.val, by have := j.isLt; omega⟩ : Fin 768)) (fun a => ?_)).trans ?_
  · match a with
    | ⟨0, _⟩ => show ch.val = 0 + ch.val; omega
    | ⟨1, _⟩ => show j.val = 0 + j.val; omega
  · refine extractStridedSlice_apply ![0, 1] _ _ _ (ix2 ch (keyCol j)) (fun a => ?_)
    match a with
    | ⟨0, _⟩ => show ch.val = 0 + ch.val; omega
    | ⟨1, _⟩ => show 1 + j.val = 1 + j.val; rfl

/-- The value weight as the region finds it. -/
theorem wval_term (c : Dev nD) (h1 : S384x769.Slices ![0, 1] S384x768) (h2 : S384x768.Slices ![0, 384] S384x384) :
    (V m c main_v3 : S384x384.Idx → EReal)
      = extractStridedSlice S384x384 ![0, 384] (extractStridedSlice S384x768 ![0, 1] (m ((c : Thread nD τ).loc main_arg1)) h1) h2 := by
  show StableHlo.after hostOps0 (fun b => m (c, b)) (Proc.devRef .tc main_v3) = _
  after_results

/-- The value weight's column `j` is the fused weight's value column `j`. -/
theorem wval_at (c : Dev nD) (ch j : Fin 384) :
    (V m c main_v3 : S384x384.Idx → EReal) (ix2 ch j) = (m ((c : Thread nD τ).loc main_arg1) : S384x769.Idx → EReal) (ix2 ch (valCol j)) := by
  refine (congrFun (wval_term m c slices_S384x769_S384x768_0_1 slices_S384x768_S384x384_0_384) (ix2 ch j)).trans ?_
  refine (extractStridedSlice_apply ![0, 384] _ _ (ix2 ch j) (ix2 ch (⟨384 + j.val, by have := j.isLt; omega⟩ : Fin 768)) (fun a => ?_)).trans ?_
  · match a with
    | ⟨0, _⟩ => show ch.val = 0 + ch.val; omega
    | ⟨1, _⟩ => show 384 + j.val = 384 + j.val; rfl
  · refine extractStridedSlice_apply ![0, 1] _ _ _ (ix2 ch (valCol j)) (fun a => ?_)
    match a with
    | ⟨0, _⟩ => show ch.val = 0 + ch.val; omega
    | ⟨1, _⟩ => show 385 + j.val = 1 + (384 + j.val); omega

/-- The key bias row as the region finds it. -/
theorem bkey_term (c : Dev nD) (h1 : S769.Slices ![1] S768) (h2 : S768.Slices ![0] S384) (h3 : S384.ShapeCasts S1x384) :
    (V m c main_v5 : S1x384.Idx → EReal)
      = shapeCast S1x384 (extractStridedSlice S384 ![0] (extractStridedSlice S768 ![1] (m ((c : Thread nD τ).loc main_arg2)) h1) h2) h3 := by
  show StableHlo.after hostOps0 (fun b => m (c, b)) (Proc.devRef .tc main_v5) = _
  after_results; rfl

/-- The key bias row at channel `j` is the fused bias at the key column `j`. -/
theorem bkey_at (c : Dev nD) (j : Fin 384) :
    (V m c main_v5 : S1x384.Idx → EReal) (ix2 0 j) = (m ((c : Thread nD τ).loc main_arg2) : S769.Idx → EReal) (ix1 (keyCol j)) := by
  refine (congrFun (bkey_term m c slices_S769_S768_1 slices_S768_S384_0 shapeCasts_S384_S1x384) (ix2 0 j)).trans ?_
  refine (Cert.Lib.Rows.shapeCast_row_apply _ _ j).trans ?_
  refine (extractStridedSlice_apply ![0] _ _ (ix1 j) (ix1 (⟨j.val, by have := j.isLt; omega⟩ : Fin 768)) (fun a => ?_)).trans ?_
  · match a with
    | ⟨0, _⟩ => show j.val = 0 + j.val; omega
  · refine extractStridedSlice_apply ![1] _ _ _ (ix1 (keyCol j)) (fun a => ?_)
    match a with
    | ⟨0, _⟩ => show 1 + j.val = 1 + j.val; rfl

/-- The value bias row as the region finds it. -/
theorem bval_term (c : Dev nD) (h1 : S769.Slices ![1] S768) (h2 : S768.Slices ![384] S384) (h3 : S384.ShapeCasts S1x384) :
    (V m c main_v7 : S1x384.Idx → EReal)
      = shapeCast S1x384 (extractStridedSlice S384 ![384] (extractStridedSlice S768 ![1] (m ((c : Thread nD τ).loc main_arg2)) h1) h2) h3 := by
  show StableHlo.after hostOps0 (fun b => m (c, b)) (Proc.devRef .tc main_v7) = _
  after_results; rfl

/-- The value bias row at channel `j` is the fused bias at the value column `j`. -/
theorem bval_at (c : Dev nD) (j : Fin 384) :
    (V m c main_v7 : S1x384.Idx → EReal) (ix2 0 j) = (m ((c : Thread nD τ).loc main_arg2) : S769.Idx → EReal) (ix1 (valCol j)) := by
  refine (congrFun (bval_term m c slices_S769_S768_1 slices_S768_S384_384 shapeCasts_S384_S1x384) (ix2 0 j)).trans ?_
  refine (Cert.Lib.Rows.shapeCast_row_apply _ _ j).trans ?_
  refine (extractStridedSlice_apply ![384] _ _ (ix1 j) (ix1 (⟨384 + j.val, by have := j.isLt; omega⟩ : Fin 768)) (fun a => ?_)).trans ?_
  · match a with
    | ⟨0, _⟩ => show 384 + j.val = 384 + j.val; rfl
  · refine extractStridedSlice_apply ![1] _ _ _ (ix1 (valCol j)) (fun a => ?_)
    match a with
    | ⟨0, _⟩ => show 385 + j.val = 1 + (384 + j.val); omega

/-- The output bias row as the region finds it. -/
theorem bout_term (c : Dev nD) (h : S384.ShapeCasts S1x384) :
    (V m c main_v8 : S1x384.Idx → EReal) = shapeCast S1x384 (m ((c : Thread nD τ).loc main_arg4)) h := by
  show StableHlo.after hostOps0 (fun b => m (c, b)) (Proc.devRef .tc main_v8) = _
  after_results; rfl

/-- The output bias row at channel `d` is the output bias at `d`. -/
theorem bout_at (c : Dev nD) (d : Fin 384) :
    (V m c main_v8 : S1x384.Idx → EReal) (ix2 0 d) = (m ((c : Thread nD τ).loc main_arg4) : S384.Idx → EReal) (ix1 d) := by
  refine (congrFun (bout_term m c shapeCasts_S384_S1x384) (ix2 0 d)).trans ?_
  exact Cert.Lib.Rows.shapeCast_row_apply _ _ d

end Cert.KernelIdeal.Entry

end
-- ==== Proof.ArrayValue.lean ====
/-
  The result array of the kernel, whole.

  Grid point `t` of the 32 handles the four groups `4 t … 4 t + 3` of the 128: it reads those groups' rows and the whole of
  each weight and bias array, and writes back those groups' outputs. So what a point writes back is a block of ONE function
  of the arrays as the region finds them — every group's output of the specification —, the 32 blocks tile the 128 groups,
  and the array ends holding that function. The one host line after the region lays the 128 groups back as 32 × 4.
-/
import proofs.«181809_j78065325572222_2_alg».proof.Proof.Gen.KernelIdeal.Frame
import proofs.«181809_j78065325572222_2_alg».proof.Proof.BlockValue
import proofs.«181809_j78065325572222_2_alg».proof.Proof.Entry
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen Cert.GatedContext

/-- Every group's output, as one function over the 128 groups: entry (gg, n, d) is group `gg`'s output at row `n`, channel `d`. -/
def groupsOut (X : S128x1024x384.Idx → EReal) (Wk Wv Wp : S384x384.Idx → EReal) (Bk Bv Bp : S1x384.Idx → EReal) :
    S128x1024x384.Idx → EReal := fun i =>
  groupOut (fun n ch => X (ix3 (i 0) n ch)) (fun ch j => Wk (ix2 ch j)) (fun ch j => Wv (ix2 ch j)) (fun j d => Wp (ix2 j d))
    (fun j => Bk (ix2 0 j)) (fun j => Bv (ix2 0 j)) (fun d => Bp (ix2 0 d)) (i 1) (i 2)

/-- A group's output depends on its arguments entry by entry. -/
theorem groupOut_congr {X X' : Fin 1024 → Fin 384 → EReal} {Wk Wk' Wv Wv' Wp Wp' : Fin 384 → Fin 384 → EReal}
    {Bk Bk' Bv Bv' Bp Bp' : Fin 384 → EReal} {n n' : Fin 1024} {d d' : Fin 384}
    (hX : ∀ a b, X a b = X' a b) (hWk : ∀ a b, Wk a b = Wk' a b) (hWv : ∀ a b, Wv a b = Wv' a b) (hWp : ∀ a b, Wp a b = Wp' a b)
    (hBk : ∀ a, Bk a = Bk' a) (hBv : ∀ a, Bv a = Bv' a) (hBp : ∀ a, Bp a = Bp' a) (hn : n = n') (hd : d = d') :
    groupOut X Wk Wv Wp Bk Bv Bp n d = groupOut X' Wk' Wv' Wp' Bk' Bv' Bp' n' d' := by
  obtain rfl : X = X' := funext fun a => funext (hX a)
  obtain rfl : Wk = Wk' := funext fun a => funext (hWk a)
  obtain rfl : Wv = Wv' := funext fun a => funext (hWv a)
  obtain rfl : Wp = Wp' := funext fun a => funext (hWp a)
  obtain rfl : Bk = Bk' := funext hBk
  obtain rfl : Bv = Bv' := funext hBv
  obtain rfl : Bp = Bp' := funext hBp
  subst hn hd
  rfl

/-- AT ONE ENTRY OF A BLOCK: if the loaded group rows are the array's rows of the group the entry lands in, and the loaded
    weights and biases are the arrays', the body's stored value at the entry is that group's output at the entry's row and
    channel. -/
theorem point_eq (x0 : Vec Ideal S4x1024x384 .f32) (x1 x3 x5 : Vec Ideal S384x384 .f32) (x2 x4 x6 : Vec Ideal S1x384 .f32)
    (X : S128x1024x384.Idx → EReal) (Wk Wv Wp : S384x384.Idx → EReal) (Bk Bv Bp : S1x384.Idx → EReal)
    (y : S4x1024x384.Idx) (i : S128x1024x384.Idx)
    (h0 : ∀ (n : Fin 1024) (ch : Fin 384), x0 (ix3 (y 0) n ch) = X (ix3 (i 0) n ch))
    (h1 : ∀ ch j : Fin 384, x1 (ix2 ch j) = Wk (ix2 ch j)) (h3 : ∀ ch j : Fin 384, x3 (ix2 ch j) = Wv (ix2 ch j))
    (h5 : ∀ j d : Fin 384, x5 (ix2 j d) = Wp (ix2 j d)) (h2 : ∀ j : Fin 384, x2 (ix2 0 j) = Bk (ix2 0 j))
    (h4 : ∀ j : Fin 384, x4 (ix2 0 j) = Bv (ix2 0 j)) (h6 : ∀ d : Fin 384, x6 (ix2 0 d) = Bp (ix2 0 d))
    (e1 : (i 1).val = (y 1).val) (e2 : (i 2).val = (y 2).val) :
    k0_pay1 (F := Ideal) x0 x1 x3 x2 x4 x5 x6 y = groupsOut X Wk Wv Wp Bk Bv Bp i := by
  obtain ⟨g, n, d, rfl⟩ : ∃ (g : Fin 4) (n : Fin 1024) (d : Fin 384), y = ix3 g n d := ⟨y 0, y 1, y 2, eq_ix3 y⟩
  refine (Cert.KernelIdeal.BlockValue.pay_apply x0 x1 x3 x2 x4 x5 x6 g n d).trans ?_
  unfold groupsOut
  exact groupOut_congr (fun a b => h0 a b) (fun a b => h1 a b) (fun a b => h3 a b) (fun a b => h5 a b) (fun a => h2 a)
    (fun a => h4 a) (fun a => h6 a) (Fin.ext e1.symm) (Fin.ext e2.symm)

variable (m : (ℓ : Loc nD τ sig) → Buf (Elt Ideal) ℓ) (ρ : Dev nD → PrngReg)

/-- Every group's output, of the arrays as the region finds them. -/
abbrev H (c : Dev nD) : S128x1024x384.Idx → EReal :=
  groupsOut (V m c main_v9) (V m c main_v2) (V m c main_v3) (V m c main_arg3) (V m c main_v5) (V m c main_v7) (V m c main_v8)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 points: the group window and the result window sit at block `t` of the group
    axis and block 0 of the others; every weight and bias window sits at block (0, 0). -/
theorem idx_facts : ∀ t : Fin cfg0.N,
    win0_0.index t (0 : Fin 3) = win0_7.index t (0 : Fin 3) ∧ win0_0.index t (1 : Fin 3) = 0 ∧ win0_0.index t (2 : Fin 3) = 0
    ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val :=
  (by decide +kernel : ∀ t : Fin grid0.N, _)

/-- WHAT POINT `t` WRITES BACK is block `t` of every group's output. -/
theorem flushed_eq (c : Dev nD) (t : Fin cfg0.N) :
    (dats m 0 c).flushed 7 t = ((cfg0.win 7).blk t).view.read (Elt Ideal) (H m c) := by
  show (cfg0.win 7).cut (grid0.coords t) ((dats m 0 c).after 7 t) = _
  rw [after0_7]
  unfold out0_7
  rw [View.canon_unit_zero hz3]
  simp only [View.ld_unit_zero (S := S4x1024x384) hz3, View.ld_unit_zero (S := S384x384) hz2, View.ld_unit_zero (S := S1x384) hz2]
  obtain ⟨f00, f01, f02, f71, f72, f10, f11, f20, f21, f30, f31, f40, f41, f50, f51, f60, f61, f70⟩ := idx_facts t
  funext y
  show k0_pay1 (F := Ideal) (iblk m c 0 t) (iblk m c 1 t) (iblk m c 3 t) (iblk m c 2 t) (iblk m c 4 t) (iblk m c 5 t) (iblk m c 6 t) y
    = H m c (((cfg0.win 7).blk t).view.emb y)
  refine point_eq (iblk m c 0 t) (iblk m c 1 t) (iblk m c 3 t) (iblk m c 5 t) (iblk m c 2 t) (iblk m c 4 t) (iblk m c 6 t)
    (V m c main_v9) (V m c main_v2) (V m c main_v3) (V m c main_arg3) (V m c main_v5) (V m c main_v7) (V m c main_v8)
    y (((cfg0.win 7).blk t).view.emb y) ?_ ?_ ?_ ?_ ?_ ?_ ?_ ?_ ?_
  · intro n ch
    show V m c main_v9 (((cfg0.win 0).blk t).view.emb (ix3 (y 0) n ch)) = _
    refine congrArg (V m c main_v9) (funext fun a => Fin.ext ?_)
    match a with
    | ⟨0, _⟩ => show win0_0.index t (0 : Fin 3) * 4 + 1 * (y 0).val = win0_7.index t (0 : Fin 3) * 4 + 1 * (y 0).val; rw [f00]
    | ⟨1, _⟩ => show win0_0.index t (1 : Fin 3) * 1024 + 1 * n.val = n.val; rw [f01]; omega
    | ⟨2, _⟩ => show win0_0.index t (2 : Fin 3) * 384 + 1 * ch.val = ch.val; rw [f02]; omega
  · intro ch j
    show V m c main_v2 (((cfg0.win 1).blk t).view.emb (ix2 ch j)) = _
    refine congrArg (V m c main_v2) (funext fun a => Fin.ext ?_)
    match a with
    | ⟨0, _⟩ => show win0_1.index t (0 : Fin 2) * 384 + 1 * ch.val = ch.val; rw [f10]; omega
    | ⟨1, _⟩ => show win0_1.index t (1 : Fin 2) * 384 + 1 * j.val = j.val; rw [f11]; omega
  · intro ch j
    show V m c main_v3 (((cfg0.win 3).blk t).view.emb (ix2 ch j)) = _
    refine congrArg (V m c main_v3) (funext fun a => Fin.ext ?_)
    match a with
    | ⟨0, _⟩ => show win0_3.index t (0 : Fin 2) * 384 + 1 * ch.val = ch.val; rw [f30]; omega
    | ⟨1, _⟩ => show win0_3.index t (1 : Fin 2) * 384 + 1 * j.val = j.val; rw [f31]; omega
  · intro j d
    show V m c main_arg3 (((cfg0.win 5).blk t).view.emb (ix2 j d)) = _
    refine congrArg (V m c main_arg3) (funext fun a => Fin.ext ?_)
    match a with
    | ⟨0, _⟩ => show win0_5.index t (0 : Fin 2) * 384 + 1 * j.val = j.val; rw [f50]; omega
    | ⟨1, _⟩ => show win0_5.index t (1 : Fin 2) * 384 + 1 * d.val = d.val; rw [f51]; omega
  · intro j
    show V m c main_v5 (((cfg0.win 2).blk t).view.emb (ix2 0 j)) = _
    refine congrArg (V m c main_v5) (funext fun a => Fin.ext ?_)
    match a with
    | ⟨0, _⟩ => show win0_2.index t (0 : Fin 2) * 1 + 1 * 0 = 0; rw [f20]
    | ⟨1, _⟩ => show win0_2.index t (1 : Fin 2) * 384 + 1 * j.val = j.val; rw [f21]; omega
  · intro j
    show V m c main_v7 (((cfg0.win 4).blk t).view.emb (ix2 0 j)) = _
    refine congrArg (V m c main_v7) (funext fun a => Fin.ext ?_)
    match a with
    | ⟨0, _⟩ => show win0_4.index t (0 : Fin 2) * 1 + 1 * 0 = 0; rw [f40]
    | ⟨1, _⟩ => show win0_4.index t (1 : Fin 2) * 384 + 1 * j.val = j.val; rw [f41]; omega
  · intro d
    show V m c main_v8 (((cfg0.win 6).blk t).view.emb (ix2 0 d)) = _
    refine congrArg (V m c main_v8) (funext fun a => Fin.ext ?_)
    match a with
    | ⟨0, _⟩ => show win0_6.index t (0 : Fin 2) * 1 + 1 * 0 = 0; rw [f60]
    | ⟨1, _⟩ => show win0_6.index t (1 : Fin 2) * 384 + 1 * d.val = d.val; rw [f61]; omega
  · show win0_7.index t (1 : Fin 3) * 1024 + 1 * (y 1).val = (y 1).val
    rw [f71]; omega
  · show win0_7.index t (2 : Fin 3) * 384 + 1 * (y 2).val = (y 2).val
    rw [f72]; omega

/-- An index of the result array is in point `t`'s block iff each coordinate is in the block's range on its axis. -/
theorem mem_blk (t : Fin cfg0.N) (i : S128x1024x384.Idx) :
    i ∈ ((cfg0.win 7).blk t).view.set ↔ ∀ a : Fin 3, win0_7.index t a * S4x1024x384.size a ≤ (i a).val
      ∧ (i a).val < win0_7.index t a * S4x1024x384.size a + S4x1024x384.size a := by
  show i ∈ ((View.whole main_v10).slice (win0_7.rect t)).set ↔ _
  rw [View.set_slice_whole, Rect.mem_set_unit]
  exact Iff.rfl

/-- The 32 blocks tile the 128 groups: group `gg` is in the block of point `gg / 4`. -/
theorem cover (i : S128x1024x384.Idx) :
    ∃ t : Fin cfg0.N, (cfg0.win 7).flush t = true ∧ i ∈ ((cfg0.win 7).blk t).view.set := by
  have hi0 : (i 0).val < 128 := (i 0).isLt
  have hi1 : (i 1).val < 1024 := (i 1).isLt
  have hi2 : (i 2).val < 384 := (i 2).isLt
  have hN : grid0.N = 32 := N_0
  let t : Fin cfg0.N := ⟨(i 0).val / 4, by show (i 0).val / 4 < grid0.N; rw [hN]; omega⟩
  obtain ⟨f00, f01, f02, f71, f72, f10, f11, f20, f21, f30, f31, f40, f41, f50, f51, f60, f61, f70⟩ := idx_facts t
  have ht : t.val = (i 0).val / 4 := rfl
  refine ⟨t, flush0_7 t, ?_⟩
  rw [mem_blk]
  intro a
  match a with
  | ⟨0, _⟩ =>
    show win0_7.index t (0 : Fin 3) * 4 ≤ (i 0).val ∧ (i 0).val < win0_7.index t (0 : Fin 3) * 4 + 4
    rw [f70, ht]; omega
  | ⟨1, _⟩ =>
    show win0_7.index t (1 : Fin 3) * 1024 ≤ (i 1).val ∧ (i 1).val < win0_7.index t (1 : Fin 3) * 1024 + 1024
    rw [f71]; omega
  | ⟨2, _⟩ =>
    show win0_7.index t (2 : Fin 3) * 384 ≤ (i 2).val ∧ (i 2).val < win0_7.index t (2 : Fin 3) * 384 + 384
    rw [f72]; omega

/-- THE RESULT ARRAY after the region: every group's output. -/
theorem final (c : Dev nD) : (dats m 0 c).arrAt 7 cfg0.N = H m c :=
  (dats m 0 c).arrAt_eq_of_cover 7 (H m c) (fun t _ => flushed_eq m c t) cover

/-- The program's result: the one host line after the region lays the 128 groups back as 32 × 4. -/
theorem tail_eq (c : Dev nD) (h : S128x1024x384.ShapeCasts S32x4x1024x384) :
    (Pipeline.afterTail₀ cfgs (dats m) 0 (V0 m) [hostOps1] c main_v11 : S32x4x1024x384.Idx → EReal)
      = shapeCast S32x4x1024x384 (H m c) h := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10) = H m c :=
    (Pipeline.withArrays_arr spec0 launch0.win.arr_inj c (V0 m c) (fun w => (dats m 0 c).arrAt w cfg0.N) 7).trans (final m c)
  refine Eq.trans ?_ (congrArg (fun A => shapeCast S32x4x1024x384 A h) e)
  rfl

end Cert.KernelIdeal.ArrayValue

end
-- ==== Proof.RunValue.lean ====
/-
  The kernel program's run, read: its result is the specification of the argument arrays.

  After the region the result array holds every group's output of the arrays as the region finds them; those arrays are
  re-layings and slices of the arguments, so group `4 b + p` of the 128 is group (b, p) of the argument, the key and value
  weights and biases are the fused arrays' key and value columns, and the last host line lays the 128 groups back as 32 × 4.
-/
import proofs.«181809_j78065325572222_2_alg».proof.Proof.ArrayValue

noncomputable section

namespace Cert.KernelIdeal.RunValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GatedContext

variable (m : (ℓ : Loc nD τ sig) → Buf (Elt Ideal) ℓ) (ρ : Dev nD → PrngReg)

/-- Every group's output, laid back as 32 × 4 groups, is the specification of the argument arrays. -/
theorem result_is_G (c : Dev nD) (h : S128x1024x384.ShapeCasts S32x4x1024x384) :
    shapeCast S32x4x1024x384 (ArrayValue.H m c) h
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext i
  obtain ⟨b, p, n, d, rfl⟩ : ∃ (b : Fin 32) (p : Fin 4) (n : Fin 1024) (d : Fin 384), i = ix4 b p n d :=
    ⟨i 0, i 1, i 2, i 3, eq_ix4 i⟩
  have hgg : b.val * 4 + p.val < 128 := by have := b.isLt; have := p.isLt; omega
  refine (shapeCast_apply (ArrayValue.H m c) h (ix4 b p n d) (ix3 (⟨b.val * 4 + p.val, hgg⟩ : Fin 128) n d) ?_).trans ?_
  · rw [Shape.rowMajor_val_three, Shape.rowMajor_val_four]; rfl
  · unfold ArrayValue.H ArrayValue.groupsOut G
    exact ArrayValue.groupOut_congr (fun n' ch => Entry.groups_at m c b p _ rfl n' ch) (fun ch j => Entry.wkey_at m c ch j)
      (fun ch j => Entry.wval_at m c ch j) (fun j d' => by rw [V_main_arg3 m c]) (fun j => Entry.bkey_at m c j)
      (fun j => Entry.bval_at m c j) (fun d' => Entry.bout_at m c d') rfl rfl

/-- THE RUN: every weakly fair execution of the kernel program terminates with the result at the specification of the
    arguments, and the arguments unchanged. -/
theorem run : θ_run defs (onTc (τ := τ) (main (F := Ideal))) ⟨m, fun _ => 0, ρ⟩ fun r => ∀ c : Dev nD,
      r.2.mem ((c.tc : Thread nD τ).loc main_v11)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v11 (Pipeline.mem_restRefs_of main_v11 (by decide) (by decide))).trans
        ((ArrayValue.tail_eq m c shapeCasts_S128x1024x384_S32x4x1024x384).trans (result_is_G m c _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c)⟩)
    (run_main m ρ)

end Cert.KernelIdeal.RunValue

end
-- ==== Proof.LibAllReal.lean ====
/-
  Real-valued arrays over the extended reals.

  At the ideal float instance a float is an extended real. An array is REAL when every entry is (the
  coercion of) a real number: no entry is `⊤` or `⊥`. The algebra a value proof uses — distributivity,
  cancellation, the exchange of finite sums — holds for reals and fails at the infinities, so a value proof
  carries this predicate along the program. This file proves that the host operations keep it:

  * pointwise sum, difference, product, maximum, minimum, negation; a selection between two real arrays;
    the splat of a bit pattern that denotes a real (with the patterns of 0, 1, 169343 and the single-precision
    neighbour of 10⁻⁵, which is positive);
  * every re-indexing (broadcasts, reshape, slice, transpose, gather), whose entries are entries of the operand;
  * a finite sum of reals; hence the exact scatter-add, the exact sum-reduction, the exact matrix product;
  * the quotient by an array of nonzero reals and the reciprocal square root of an array of positive reals;
    and `where (d > 0) (rsqrt d) w`, which is real for every real `d`: the reciprocal square root is read
    only where `d` is positive.
-/
import Idealize.ShloMosaic.PureOps
import Idealize.ShloMosaic.PureOps.Ideal
import Idealize.ShloMosaic.PureOps.Ideal.Laws
import Idealize.ShloMosaic.Lib.ReduceAll

noncomputable section

namespace Cert.Lib.AllReal

open Idealize.ShloMosaic

/-! ## The predicates -/

/-- An extended real that is (the coercion of) a real number. -/
def IsReal (x : EReal) : Prop := ∃ r : ℝ, x = (r : EReal)

/-- An array over the extended reals every entry of which is a real number. -/
def AllReal {s : Shape} (v : s.Idx → EReal) : Prop := ∀ i, ∃ r : ℝ, v i = (r : EReal)

/-- An array is real exactly when each entry is. -/
theorem allReal_iff {s : Shape} (v : s.Idx → EReal) : AllReal v ↔ ∀ i, IsReal (v i) := Iff.rfl

/-- The entry of a real array at an index, as a real number. -/
theorem AllReal.isReal {s : Shape} {v : s.Idx → EReal} (h : AllReal v) (i : s.Idx) : IsReal (v i) := h i

/-- A real number is neither infinity. -/
theorem IsReal.ne_top {x : EReal} (h : IsReal x) : x ≠ ⊤ := by
  obtain ⟨r, rfl⟩ := h; exact EReal.coe_ne_top r

/-- A real number is neither infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- An extended real of absolute value below `⊤` is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## Scalars -/

/-- A coerced real is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases le_total x y with h | h
  · rw [max_eq_right h]; exact hy
  · rw [max_eq_left h]; exact hx

/-- The lesser of two reals is real: it is one of them. -/
theorem IsReal.min {x y : EReal} (hx : IsReal x) (hy : IsReal y) : IsReal (min x y) := by
  rcases le_total x y with h | h
  · rw [min_eq_left h]; exact hx
  · rw [min_eq_right h]; exact hy

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- The exact quotient of a real by a nonzero real is real: the product with the reciprocal. -/
theorem IsReal.div {x : EReal} (hx : IsReal x) {b : ℝ} (hb : b ≠ 0) : IsReal (Ideal.div x (b : EReal)) := by
  rw [Ideal.div_coe hb]; exact hx.mul (isReal_coe _)

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is real. -/
theorem isReal_rsqrt {r : ℝ} (hr : 0 < r) : IsReal (Ideal.rsqrt (r : EReal)) :=
  ⟨_, rsqrt_coe_of_pos hr⟩

/-! ## Bit patterns that denote reals -/

/-- The single-precision pattern of `0.0` is the real 0. -/
theorem ofBits_f32_zero : Ideal.ofBits .f32 0x00000000#32 = ((0 : ℝ) : EReal) := by
  simp [Ideal.ofBits, Ideal.ieee]

/-- The single-precision pattern of `1.0` is the real 1. -/
theorem ofBits_f32_one : Ideal.ofBits .f32 0x3F800000#32 = ((1 : ℝ) : EReal) := by
  simp [Ideal.ofBits, Ideal.ieee]
  rw [← EReal.coe_mul]; norm_num

/-- The single-precision pattern of `169343.0` is the real 169343. -/
theorem ofBits_f32_169343 : Ideal.ofBits .f32 0x48255FC0#32 = ((169343 : ℝ) : EReal) := by
  simp [Ideal.ofBits, Ideal.ieee]
  rw [← EReal.coe_mul]; norm_num

/-- The single-precision neighbour of `10⁻⁵` is the real `10995116 · 2⁻⁴⁰`. -/
theorem ofBits_f32_eps : Ideal.ofBits .f32 0x3727C5AC#32 = ((10995116 * (2 ^ 40)⁻¹ : ℝ) : EReal) := by
  simp [Ideal.ofBits, Ideal.ieee]

/-- The single-precision neighbour of `10⁻⁵` is a positive real. -/
theorem ofBits_f32_eps_pos : ∃ r : ℝ, 0 < r ∧ Ideal.ofBits .f32 0x3727C5AC#32 = (r : EReal) :=
  ⟨_, by positivity, ofBits_f32_eps⟩

/-- The real `169343` is not zero. -/
theorem ofBits_f32_169343_ne_zero : ∃ b : ℝ, b ≠ 0 ∧ Ideal.ofBits .f32 0x48255FC0#32 = (b : EReal) :=
  ⟨_, by norm_num, ofBits_f32_169343⟩

/-! ## Pointwise operations -/

section Pointwise
variable {s : Shape} {φ : FTy}

/-- The pointwise sum of two real arrays is real. -/
theorem allReal_addf (x y : FVec Ideal s φ) (hx : AllReal x) (hy : AllReal y) : AllReal (addf x y) :=
  fun i => IsReal.add (hx i) (hy i)

/-- The pointwise difference of two real arrays is real. -/
theorem allReal_subf (x y : FVec Ideal s φ) (hx : AllReal x) (hy : AllReal y) : AllReal (subf x y) :=
  fun i => IsReal.sub (hx i) (hy i)

/-- The pointwise product of two real arrays is real. -/
theorem allReal_mulf (x y : FVec Ideal s φ) (hx : AllReal x) (hy : AllReal y) : AllReal (mulf x y) :=
  fun i => IsReal.mul (hx i) (hy i)

/-- The pointwise maximum of two real arrays is real. -/
theorem allReal_maximumf (x y : FVec Ideal s φ) (hx : AllReal x) (hy : AllReal y) : AllReal (maximumf x y) :=
  fun i => IsReal.max (hx i) (hy i)

/-- The pointwise minimum of two real arrays is real. -/
theorem allReal_minimumf (x y : FVec Ideal s φ) (hx : AllReal x) (hy : AllReal y) : AllReal (minimumf x y) :=
  fun i => IsReal.min (hx i) (hy i)

/-- The pointwise negative of a real array is real. -/
theorem allReal_negf (x : FVec Ideal s φ) (hx : AllReal x) : AllReal (negf x) :=
  fun i => IsReal.neg (hx i)

/-- A selection between two arrays is real when each branch is real where it is taken. -/
theorem allReal_select_of (c : IVec s 1) (a b : s.Idx → EReal) (ha : ∀ i, c i = 1 → IsReal (a i))
    (hb : ∀ i, c i ≠ 1 → IsReal (b i)) : AllReal (select c a b) := by
  intro i
  show IsReal (if c i = 1 then a i else b i)
  split
  · exact ha i ‹_›
  · exact hb i ‹_›

/-- A selection between two real arrays is real. -/
theorem allReal_select (c : IVec s 1) (a b : s.Idx → EReal) (ha : AllReal a) (hb : AllReal b) :
    AllReal (select c a b) :=
  allReal_select_of c a b (fun i _ => ha i) (fun i _ => hb i)

/-- The splat of a bit pattern that denotes a real is a real array. -/
theorem allReal_constant (bits : BitVec φ.bits) (h : IsReal (Ideal.ofBits φ bits)) :
    AllReal (constant (F := Ideal) s φ bits) :=
  fun _ => h

/-- The splat of `0.0` is a real array. -/
theorem allReal_constant_zero : AllReal (constant (F := Ideal) s .f32 0x00000000#32) :=
  allReal_constant _ ⟨_, ofBits_f32_zero⟩

/-- The splat of `1.0` is a real array. -/
theorem allReal_constant_one : AllReal (constant (F := Ideal) s .f32 0x3F800000#32) :=
  allReal_constant _ ⟨_, ofBits_f32_one⟩

/-- The splat of `169343.0` is a real array. -/
theorem allReal_constant_169343 : AllReal (constant (F := Ideal) s .f32 0x48255FC0#32) :=
  allReal_constant _ ⟨_, ofBits_f32_169343⟩

/-- The splat of the single-precision neighbour of `10⁻⁵` is a real array. -/
theorem allReal_constant_eps : AllReal (constant (F := Ideal) s .f32 0x3727C5AC#32) :=
  allReal_constant _ ⟨_, ofBits_f32_eps⟩

end Pointwise

/-! ## Re-indexings: every entry of the result is an entry of the operand -/

section Layout
variable {s t : Shape}

/-- An array read through any map of indices is real when the array is. -/
theorem allReal_comp (x : s.Idx → EReal) (f : t.Idx → s.Idx) (hx : AllReal x) : AllReal (fun j => x (f j)) :=
  fun j => hx (f j)

/-- The splat of a real scalar is a real array. -/
theorem allReal_broadcast (x : EReal) (hx : IsReal x) : AllReal (broadcast t x) := fun _ => hx

/-- A broadcast along named axes of a real array is real. -/
theorem allReal_broadcastInDim (dims : Fin s.rank → Fin t.rank) (h : s.BroadcastsInDim t dims) (x : s.Idx → EReal)
    (hx : AllReal x) : AllReal (broadcastInDim t dims h x) :=
  fun j => hx _

/-- A broadcast along leading axes of a real array is real. -/
theorem allReal_broadcastTo (x : s.Idx → EReal) (h : s.Broadcasts t) (hx : AllReal x) :
    AllReal (broadcastTo t x h) :=
  fun j => hx _

/-- A reshape of a real array is real. -/
theorem allReal_shapeCast (x : s.Idx → EReal) (h : s.ShapeCasts t) (hx : AllReal x) : AllReal (shapeCast t x h) :=
  fun j => hx _

/-- A slice of a real array is real. -/
theorem allReal_extractStridedSlice (off : Fin s.rank → Nat) (x : s.Idx → EReal) (h : s.Slices off t)
    (hx : AllReal x) : AllReal (extractStridedSlice t off x h) :=
  fun j => hx _

/-- A transpose of a real array is real. -/
theorem allReal_transpose (perm : List (Fin s.rank)) (x : s.Idx → EReal) (h : s.Transposes perm t)
    (hx : AllReal x) : AllReal (transpose t perm x h) :=
  fun j => hx _

/-- A gather from a real array is real, whatever the start indices: each result entry is the operand's entry at
    the (clamped) operand index. -/
theorem allReal_gather {si : Shape} {w : Nat} (d : GatherDims s si t) (x : s.Idx → EReal) (idx : IVec si w)
    (hx : AllReal x) : AllReal (Host.gather d x idx) :=
  fun j => hx _

end Layout

/-! ## Finite sums: scatter-add, sum-reduction, matrix product -/

section Sums

/-- The exact scatter-add into a real array of a real array of updates is real, whatever the indices: each entry
    is the operand's plus the finite sum of the updates that land on it. -/
theorem allReal_scatterAdd {s si u : Shape} {φ : FTy} {w : Nat} (d : ScatterDims s si u) (x : FVec Ideal s φ)
    (idx : IVec si w) (upd : FVec Ideal u φ) (hx : AllReal x) (hu : AllReal upd) :
    AllReal (Host.scatterAdd d x idx upd) := by
  intro i
  show IsReal (x i + ∑ j ∈ Finset.univ.filter (fun j => d.resultIdx? j idx = some i), upd j)
  exact IsReal.add (hx i) (isReal_sum _ _ fun j _ => hu j)

/-- The exact sum-reduction of a real array from a real initial value is real: each entry is the initial value
    plus the finite sum of the entries that reduce to it. -/
theorem allReal_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := by
  intro j
  show IsReal (init (Shape.Idx.first hu) + ∑ i ∈ Finset.univ.filter (fun i => h.drop i = j), x i)
  exact IsReal.add (hi _) (isReal_sum _ _ fun i _ => hx i)

/-- The exact matrix product of two real arrays is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsReal (FloatOps.dotGeneral d prec .single l r j)
  rw [Ideal.dotGeneral_apply]
  exact isReal_sum _ _ fun k _ => IsReal.mul (hl _) (hr _)

/-- The exact matrix product accumulated into a real array is real. -/
theorem allReal_matmul {sl sr so : Shape} {φ₁ φ₂ : FTy} (d : DotDims sl sr so) (prec : Option ContractPrecision)
    (l : FVec Ideal sl φ₁) (r : FVec Ideal sr φ₂) (acc : FVec Ideal so .f32) (hl : AllReal l) (hr : AllReal r)
    (ha : AllReal acc) : AllReal (FloatOps.matmul d prec l r acc) := by
  intro j
  rw [Ideal.matmul_apply]
  exact IsReal.add (ha j) (isReal_sum _ _ fun k _ => IsReal.mul (hl _) (hr _))

end Sums

/-! ## Quotient and reciprocal square root -/

section Corners
variable {s : Shape} {φ : FTy}

/-- The exact quotient of a real array by an array of nonzero reals is real. -/
theorem allReal_divf (x y : FVec Ideal s φ) (hx : AllReal x) (hy : ∀ i, ∃ b : ℝ, b ≠ 0 ∧ y i = (b : EReal)) :
    AllReal (Host.divf x y) := by
  intro i
  obtain ⟨b, hb, e⟩ := hy i
  show IsReal (Ideal.div (x i) (y i))
  rw [e]; exact IsReal.div (hx i) hb

/-- The reciprocal square root of an array of positive reals is real. -/
theorem allReal_rsqrt (x : FVec Ideal s φ) (hx : ∀ i, ∃ r : ℝ, 0 < r ∧ x i = (r : EReal)) :
    AllReal (Host.rsqrt x) := by
  intro i
  obtain ⟨r, hr, e⟩ := hx i
  show IsReal (Ideal.rsqrt (x i))
  rw [e]; exact isReal_rsqrt hr

/-- `where (d > z) (rsqrt d) w` is real for every real array `d`, when `z` is nowhere negative and `w` is real:
    the reciprocal square root is read only where `d` exceeds `z`, hence is positive; elsewhere the entry is `w`'s. -/
theorem allReal_select_ogt_rsqrt (d z w : FVec Ideal s φ) (hd : AllReal d) (hz : ∀ i, 0 ≤ z i) (hw : AllReal w) :
    AllReal (select (cmpf .ogt d z) (Host.rsqrt d) w) := by
  refine allReal_select_of _ _ _ (fun i hc => ?_) (fun i _ => hw i)
  obtain ⟨r, e⟩ := hd i
  have hlt : z i < d i := by
    have hc' : BitVec.ofBool (decide (z i < d i)) = 1#1 := hc
    by_contra hn
    rw [decide_eq_false hn] at hc'
    exact absurd hc' (by decide)
  have hr : 0 < r := by
    have : (0 : EReal) < (r : EReal) := e ▸ lt_of_le_of_lt (hz i) hlt
    exact_mod_cast this
  show IsReal (Ideal.rsqrt (d i))
  rw [e]; exact isReal_rsqrt hr

end Corners

/-! ## Real entries as real numbers; signs -/

section Values
variable {s t : Shape} {φ : FTy}

/-- A real extended real is the coercion of its real part. -/
theorem IsReal.coe_toReal {x : EReal} (h : IsReal x) : ((x.toReal : ℝ) : EReal) = x := by
  obtain ⟨r, rfl⟩ := h; rfl

/-- Each entry of a real array is the coercion of its real part: `fun i => (v i).toReal` is the array as reals. -/
theorem AllReal.coe_toReal {v : s.Idx → EReal} (h : AllReal v) (i : s.Idx) : (((v i).toReal : ℝ) : EReal) = v i :=
  IsReal.coe_toReal (h i)

/-- An array given entrywise by coerced reals is real. -/
theorem allReal_of_eq_coe {v : s.Idx → EReal} (f : s.Idx → ℝ) (h : ∀ i, v i = (f i : EReal)) : AllReal v :=
  fun i => ⟨f i, h i⟩

/-- An array equal to a real array is real. -/
theorem AllReal.congr {v v' : s.Idx → EReal} (h : AllReal v) (e : ∀ i, v' i = v i) : AllReal v' :=
  fun i => (e i).symm ▸ h i

/-- An array every entry of which is a positive real number. -/
def AllPos (v : s.Idx → EReal) : Prop := ∀ i, ∃ r : ℝ, 0 < r ∧ v i = (r : EReal)

/-- An array every entry of which is a nonnegative real number. -/
def AllNonneg (v : s.Idx → EReal) : Prop := ∀ i, ∃ r : ℝ, 0 ≤ r ∧ v i = (r : EReal)

/-- An array every entry of which is a nonzero real number. -/
def AllNonzero (v : s.Idx → EReal) : Prop := ∀ i, ∃ r : ℝ, r ≠ 0 ∧ v i = (r : EReal)

/-- Positive reals are reals. -/
theorem AllPos.allReal {v : s.Idx → EReal} (h : AllPos v) : AllReal v :=
  fun i => let ⟨r, _, e⟩ := h i; ⟨r, e⟩

/-- Nonnegative reals are reals. -/
theorem AllNonneg.allReal {v : s.Idx → EReal} (h : AllNonneg v) : AllReal v :=
  fun i => let ⟨r, _, e⟩ := h i; ⟨r, e⟩

/-- Positive reals are not zero. -/
theorem AllPos.allNonzero {v : s.Idx → EReal} (h : AllPos v) : AllNonzero v :=
  fun i => let ⟨r, hr, e⟩ := h i; ⟨r, hr.ne', e⟩

/-- Positive reals are nonnegative. -/
theorem AllPos.allNonneg {v : s.Idx → EReal} (h : AllPos v) : AllNonneg v :=
  fun i => let ⟨r, hr, e⟩ := h i; ⟨r, hr.le, e⟩

/-- A real array that is nowhere negative is an array of nonnegative reals. -/
theorem AllReal.allNonneg {v : s.Idx → EReal} (h : AllReal v) (h0 : ∀ i, 0 ≤ v i) : AllNonneg v := by
  intro i
  obtain ⟨r, e⟩ := h i
  refine ⟨r, ?_, e⟩
  have : (0 : EReal) ≤ (r : EReal) := e ▸ h0 i
  exact_mod_cast this

/-- A real array that is everywhere positive is an array of positive reals. -/
theorem AllReal.allPos {v : s.Idx → EReal} (h : AllReal v) (h0 : ∀ i, 0 < v i) : AllPos v := by
  intro i
  obtain ⟨r, e⟩ := h i
  refine ⟨r, ?_, e⟩
  have : (0 : EReal) < (r : EReal) := e ▸ h0 i
  exact_mod_cast this

/-- A nonnegative array plus a positive array is positive. -/
theorem allPos_addf (x y : FVec Ideal s φ) (hx : AllNonneg x) (hy : AllPos y) : AllPos (addf x y) := by
  intro i
  obtain ⟨a, ha, ea⟩ := hx i
  obtain ⟨b, hb, eb⟩ := hy i
  refine ⟨a + b, by positivity, ?_⟩
  show x i + y i = _
  rw [ea, eb, EReal.coe_add]

/-- The sum of two nonnegative arrays is nonnegative. -/
theorem allNonneg_addf (x y : FVec Ideal s φ) (hx : AllNonneg x) (hy : AllNonneg y) : AllNonneg (addf x y) := by
  intro i
  obtain ⟨a, ha, ea⟩ := hx i
  obtain ⟨b, hb, eb⟩ := hy i
  refine ⟨a + b, by positivity, ?_⟩
  show x i + y i = _
  rw [ea, eb, EReal.coe_add]

/-- The product of two nonnegative arrays is nonnegative. -/
theorem allNonneg_mulf (x y : FVec Ideal s φ) (hx : AllNonneg x) (hy : AllNonneg y) : AllNonneg (mulf x y) := by
  intro i
  obtain ⟨a, ha, ea⟩ := hx i
  obtain ⟨b, hb, eb⟩ := hy i
  refine ⟨a * b, by positivity, ?_⟩
  show x i * y i = _
  rw [ea, eb, EReal.coe_mul]

/-- The splat of a bit pattern that denotes a positive real is a positive array. -/
theorem allPos_constant (bits : BitVec φ.bits) (h : ∃ r : ℝ, 0 < r ∧ Ideal.ofBits φ bits = (r : EReal)) :
    AllPos (constant (F := Ideal) s φ bits) :=
  fun _ => h

/-- The splat of the single-precision neighbour of `10⁻⁵` is a positive array. -/
theorem allPos_constant_eps : AllPos (constant (F := Ideal) s .f32 0x3727C5AC#32) :=
  allPos_constant _ ofBits_f32_eps_pos

/-- The splat of `169343.0` is a positive array. -/
theorem allPos_constant_169343 : AllPos (constant (F := Ideal) s .f32 0x48255FC0#32) :=
  allPos_constant _ ⟨_, by norm_num, ofBits_f32_169343⟩

/-- The splat of `1.0` is a positive array. -/
theorem allPos_constant_one : AllPos (constant (F := Ideal) s .f32 0x3F800000#32) :=
  allPos_constant _ ⟨_, by norm_num, ofBits_f32_one⟩

/-- The splat of `0.0` is a nonnegative array. -/
theorem allNonneg_constant_zero : AllNonneg (constant (F := Ideal) s .f32 0x00000000#32) :=
  fun _ => ⟨0, le_refl _, ofBits_f32_zero⟩

/-- A positive array read through any map of indices is positive. -/
theorem allPos_comp (x : s.Idx → EReal) (f : t.Idx → s.Idx) (hx : AllPos x) : AllPos (fun j => x (f j)) :=
  fun j => hx (f j)

/-- A broadcast along named axes of a positive array is positive. -/
theorem allPos_broadcastInDim (dims : Fin s.rank → Fin t.rank) (h : s.BroadcastsInDim t dims) (x : s.Idx → EReal)
    (hx : AllPos x) : AllPos (broadcastInDim t dims h x) :=
  fun j => hx _

/-- A broadcast along named axes of a nonnegative array is nonnegative. -/
theorem allNonneg_broadcastInDim (dims : Fin s.rank → Fin t.rank) (h : s.BroadcastsInDim t dims) (x : s.Idx → EReal)
    (hx : AllNonneg x) : AllNonneg (broadcastInDim t dims h x) :=
  fun j => hx _

/-- A broadcast along named axes of a nonzero array is nonzero. -/
theorem allNonzero_broadcastInDim (dims : Fin s.rank → Fin t.rank) (h : s.BroadcastsInDim t dims) (x : s.Idx → EReal)
    (hx : AllNonzero x) : AllNonzero (broadcastInDim t dims h x) :=
  fun j => hx _

/-- The exact quotient of a real array by a nonzero array is real. -/
theorem allReal_divf_of_allNonzero (x y : FVec Ideal s φ) (hx : AllReal x) (hy : AllNonzero y) :
    AllReal (Host.divf x y) :=
  allReal_divf x y hx hy

/-- The reciprocal square root of a positive array is a positive array. -/
theorem allPos_rsqrt (x : FVec Ideal s φ) (hx : AllPos x) : AllPos (Host.rsqrt x) := by
  intro i
  obtain ⟨r, hr, e⟩ := hx i
  refine ⟨(Real.sqrt r)⁻¹, inv_pos.mpr (Real.sqrt_pos.mpr hr), ?_⟩
  show Ideal.rsqrt (x i) = _
  rw [e]; exact rsqrt_coe_of_pos hr

/-- The exact scatter-add of nonnegative updates into a nonnegative array is nonnegative. -/
theorem allNonneg_scatterAdd {si u : Shape} {w : Nat} (d : ScatterDims s si u) (x : FVec Ideal s φ)
    (idx : IVec si w) (upd : FVec Ideal u φ) (hx : AllNonneg x) (hu : AllNonneg upd) :
    AllNonneg (Host.scatterAdd d x idx upd) := by
  refine (allReal_scatterAdd d x idx upd hx.allReal hu.allReal).allNonneg fun i => ?_
  show 0 ≤ x i + ∑ j ∈ Finset.univ.filter (fun j => d.resultIdx? j idx = some i), upd j
  refine add_nonneg ?_ (Finset.sum_nonneg fun j _ => ?_)
  · obtain ⟨a, ha, ea⟩ := hx i; rw [ea]; exact_mod_cast ha
  · obtain ⟨b, hb, eb⟩ := hu j; rw [eb]; exact_mod_cast hb

/-- The in-kernel exact sum-reduction of a real array is real: each entry is a finite sum of entries. -/
theorem allReal_idealReduceAdd {axes : List (Fin s.rank)} (h : s.Reduces axes t) (x : s.Idx → EReal)
    (hx : AllReal x) : AllReal (Ideal.reduceAdd h x) :=
  fun j => isReal_sum _ _ fun i _ => hx i

end Values

/-! ## From a printed finiteness test to a real array -/

section Finite

/-- The single-precision pattern of `+inf` is `⊤`. -/
theorem ofBits_f32_inf : Ideal.ofBits .f32 0x7F800000#32 = ⊤ := by
  simp [Ideal.ofBits, Ideal.ieee]

/-- An entry whose absolute value is below some bound is a real number: a bound is at most `⊤`, and the
    absolute value of either infinity is `⊤`. -/
theorem isReal_of_cmpf_olt_absf {φ : FTy} (a b : Ideal φ) (h : FloatOps.cmpf .olt (FloatOps.hostAbsf a) b = 1#1) :
    IsReal a := by
  have hlt : max a (-a) < b := by
    have hc : BitVec.ofBool (decide (max a (-a) < b)) = 1#1 := h
    by_contra hn
    rw [decide_eq_false hn] at hc
    exact absurd hc (by decide)
  exact isReal_of_abs_lt_top (lt_of_lt_of_le hlt le_top)

/-- `all (|x| < y)`, an `and`-reduction over every axis of the pointwise test, came out true: then `x` is a
    real array (whatever the bound `y` is: the positive infinity in a finiteness test). -/
theorem allReal_of_reduce_andi_abs_lt {s t u : Shape} {φ : FTy} {axes : List (Fin s.rank)} [Subsingleton t.Idx]
    (x y : FVec Ideal s φ) (init : u.Idx → BitVec 1) (h : s.ReducesTo axes t) (hu : 0 < u.numel) (j : t.Idx)
    (e : Host.reduce IntOp.andi (cmpf .olt (Host.absf x) y) init h hu j = 1#1) : AllReal x :=
  fun i => isReal_of_cmpf_olt_absf (x i) (y i) (Host.reduce_andi_all _ init h hu j e i)

end Finite

end Cert.Lib.AllReal

end
-- ==== Proof.RefValue.lean ====
/-
  The reference computes the specification on real inputs.

  The reference projects every row of 384 channels by the fused weight array (769 columns: the query's, the 384
  key columns, the 384 value columns) and adds the fused bias; it multiplies each key by a softmax of the query
  taken over a trailing axis of size one, sums the products over the 1024 rows of a group, multiplies the value
  projection clipped below at zero by that sum, and projects the product once more.

  A softmax over a single entry q is exp (q - max (-inf) q) / (0 + exp (q - max (-inf) q)). For a real number q the
  maximum is q, the difference q - q is 0, the exponential of 0 is 1, and 1 / (0 + 1) = 1: the factor is one and the
  key is unchanged. At an infinite q the difference q - q is not 0 over the extended reals, so the statement
  takes the hypothesis that the input rows, the fused weights and the fused biases are real arrays; the query, a finite
  sum of products of reals plus a real, is then real.

  The proof reads the reference one operation at a time at an index, identifies each composed index map with the
  specification's coordinates, and folds the result into the specification's projection and group output.
-/
import proofs.«181809_j78065325572222_2_alg».proof.Proof.Gen.ReferenceIdeal.Read
import proofs.«181809_j78065325572222_2_alg».proof.Proof.Spec
import proofs.«181809_j78065325572222_2_alg».proof.Proof.LibAllReal
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Read Idealize.ShloMosaic Idealize.ShloMosaic.ValueIdx Cert.Lib.AllReal
open scoped BigOperators

/-- The single-precision pattern of the negative infinity is the bottom element. -/
theorem ofBits_f32_neg_inf : Ideal.ofBits .f32 0xFF800000#32 = ⊥ := by
  simp [Ideal.ofBits, Ideal.ieee]

/-- A fold of the maximum over a one-element range is the maximum of the one entry and the initial value. -/
theorem fold_max_fin_one (f : Fin 1 → EReal) (b : EReal) :
    (Finset.univ : Finset (Fin 1)).fold max b f = max (f 0) b := by
  rw [Finset.univ_unique, Finset.fold_singleton]; rfl

variable (x : FVec Ideal S32x4x1024x384 .f32) (w : FVec Ideal S384x769 .f32) (bq : FVec Ideal S769 .f32)

/-- The fused projection at an index: the row's dot product with the fused weight's column, plus the column's bias. -/
theorem v3_apply (j : S32x4x1024x769.Idx) :
    val_main_v3 (F := Ideal) x w bq j
      = (∑ c : Fin 384, x (lidx_main_v0 j c) * w (ridx_main_v0 j c)) + bq (idx_main_v1 (idx_main_v2 j)) := by
  rw [val_main_v3_apply, val_main_v0_apply, val_main_v2_apply, val_main_v1_apply]; rfl

/-- The fused projection of real rows by real weights and biases is real: a finite sum of products of reals plus a real. -/
theorem v3_isReal (hx : AllReal x) (hw : AllReal w) (hb : AllReal bq) (j : S32x4x1024x769.Idx) :
    IsReal (val_main_v3 (F := Ideal) x w bq j) := by
  rw [v3_apply]
  exact IsReal.add (isReal_sum _ _ fun c _ => IsReal.mul (hx _) (hw _)) (hb _)

/-- The maximum over the trailing axis of size one, from the negative infinity, is the single entry (or the initial value). -/
theorem v7_apply (j : S32x4x1024x1.Idx) :
    val_main_v7 (F := Ideal) x w bq (idx_main_v10 j) = max (val_main_v4 (F := Ideal) x w bq j) ⊥ := by
  unfold val_main_v7
  have hR : S32x4x1024x1.Reduces [3] S32x4x1024 := by decide
  rw [Host.reduce_eq_fold_single FloatOps.maximumf _ _ Gen.reducesTo_S32x4x1024x1_S32x4x1024_d3 hR Gen.h_S_]
  refine (fold_max_fin_one _ _).trans ?_
  have e : hR.lift (idx_main_v10 j) (0 : Fin 1) = j := funext fun a => Fin.ext (by
    match a with
    | ⟨0, _⟩ => rfl
    | ⟨1, _⟩ => rfl
    | ⟨2, _⟩ => rfl
    | ⟨3, _⟩ =>
      have h3 : (j 3).val < 1 := (j 3).isLt
      change 0 = (j 3).val
      omega)
  show max (val_main_v4 (F := Ideal) x w bq (hR.lift (idx_main_v10 j) (0 : Fin 1))) (Ideal.ofBits .f32 0xFF800000#32) = _
  rw [e, ofBits_f32_neg_inf]

/-- For real inputs the exponential in the softmax is one: the query is a real number q, the running maximum is
    max ⊥ (max q ⊥) = q, and exp (q - q) = exp 0 = 1. -/
theorem v12_eq_one (hx : AllReal x) (hw : AllReal w) (hb : AllReal bq) (j : S32x4x1024x1.Idx) :
    val_main_v12 (F := Ideal) x w bq j = 1 := by
  obtain ⟨r, hr⟩ : IsReal (val_main_v4 (F := Ideal) x w bq j) := by
    rw [val_main_v4_apply]; exact v3_isReal x w bq hx hw hb _
  rw [val_main_v12_apply, val_main_v11_apply, val_main_v10_apply, val_main_v9_apply, val_main_v8_apply,
    val_main_cst_0_apply, v7_apply, hr]
  simp only [Ideal.hostUnary_exp_def, Ideal.subf_def, Ideal.maximumf_def, Ideal.ofBits_def, ofBits_f32_neg_inf]
  rw [max_bot_right, max_bot_left, ← EReal.coe_sub, sub_self, Ideal.exp_coe, Real.exp_zero, EReal.coe_one]

/-- For real inputs the softmax's denominator is one: zero plus the one exponential. -/
theorem v14_eq_one (hx : AllReal x) (hw : AllReal w) (hb : AllReal bq) (j : S32x4x1024x1.Idx) :
    val_main_v14 (F := Ideal) x w bq j = 1 := by
  rw [val_main_v14_apply, val_main_v13_apply, val_main_cst_1_apply, Fin.sum_univ_one,
    v12_eq_one x w bq hx hw hb, Ideal.ofBits_def, Ideal.ofBits_zero_f32, zero_add]

/-- For real inputs the softmax over the single entry is one at every index. -/
theorem v16_eq_one (hx : AllReal x) (hw : AllReal w) (hb : AllReal bq) (i : S32x4x1024x384.Idx) :
    val_main_v16 (F := Ideal) x w bq i = 1 := by
  rw [val_main_v16_apply, val_main_v15_apply, v12_eq_one x w bq hx hw hb, v14_eq_one x w bq hx hw hb]
  show Ideal.div 1 1 = 1
  simp [Ideal.div]

/-! ## The composed index maps, by coordinates -/

theorem lidx0_ix (b : Fin 32) (p : Fin 4) (n : Fin 1024) (col : Fin 769) (c : Fin 384) :
    lidx_main_v0 (ix4 b p n col) c = ix4 b p n c :=
  funext fun a => by match a with | ⟨0, _⟩ => rfl | ⟨1, _⟩ => rfl | ⟨2, _⟩ => rfl | ⟨3, _⟩ => rfl

theorem ridx0_ix (b : Fin 32) (p : Fin 4) (n : Fin 1024) (col : Fin 769) (c : Fin 384) :
    ridx_main_v0 (ix4 b p n col) c = ix2 c col :=
  funext fun a => by match a with | ⟨0, _⟩ => rfl | ⟨1, _⟩ => rfl

theorem idx12_ix (b : Fin 32) (p : Fin 4) (n : Fin 1024) (col : Fin 769) :
    idx_main_v1 (idx_main_v2 (ix4 b p n col)) = ix1 col :=
  funext fun a => by match a with | ⟨0, _⟩ => rfl

theorem idx5_ix (b : Fin 32) (p : Fin 4) (n : Fin 1024) (j : Fin 384) :
    idx_main_v5 (ix4 b p n j) = ix4 b p n (Cert.GatedContext.keyCol j) :=
  funext fun a => by match a with | ⟨0, _⟩ => rfl | ⟨1, _⟩ => rfl | ⟨2, _⟩ => rfl | ⟨3, _⟩ => rfl

theorem idx6_ix (b : Fin 32) (p : Fin 4) (n : Fin 1024) (j : Fin 384) :
    idx_main_v6 (ix4 b p n j) = ix4 b p n (Cert.GatedContext.valCol j) :=
  funext fun a => by match a with | ⟨0, _⟩ => rfl | ⟨1, _⟩ => rfl | ⟨2, _⟩ => rfl | ⟨3, _⟩ => rfl

theorem idx18_ix (b : Fin 32) (p : Fin 4) (j : Fin 384) (n : Fin 1024) :
    idx_main_v18 (ix3 b p j) n = ix4 b p n j :=
  funext fun a => by match a with | ⟨0, _⟩ => rfl | ⟨1, _⟩ => rfl | ⟨2, _⟩ => rfl | ⟨3, _⟩ => rfl

theorem idx1921_ix (b : Fin 32) (p : Fin 4) (n : Fin 1024) (j : Fin 384) :
    idx_main_v19 (idx_main_v21 (ix4 b p n j)) = ix3 b p j :=
  funext fun a => by match a with | ⟨0, _⟩ => rfl | ⟨1, _⟩ => rfl | ⟨2, _⟩ => rfl

/-! ## The stages, in the specification's vocabulary -/

open Cert.GatedContext in
/-- The fused projection of row (b, p, n) on the fused weight's column `col` is the specification's projection. -/
theorem v3_ix (b : Fin 32) (p : Fin 4) (n : Fin 1024) (col : Fin 769) :
    val_main_v3 (F := Ideal) x w bq (ix4 b p n col)
      = proj (fun c => x (ix4 b p n c)) (fun c => w (ix2 c col)) (bq (ix1 col)) := by
  rw [v3_apply, idx12_ix]
  unfold Cert.GatedContext.proj
  simp only [lidx0_ix, ridx0_ix]

open Cert.GatedContext in
/-- For real inputs the key times the softmax factor is the key projection. -/
theorem v17_ix (hx : AllReal x) (hw : AllReal w) (hb : AllReal bq) (b : Fin 32) (p : Fin 4) (n : Fin 1024) (j : Fin 384) :
    val_main_v17 (F := Ideal) x w bq (ix4 b p n j)
      = proj (fun c => x (ix4 b p n c)) (fun c => w (ix2 c (keyCol j))) (bq (ix1 (keyCol j))) := by
  rw [val_main_v17_apply, val_main_v5_apply, v16_eq_one x w bq hx hw hb, idx5_ix, v3_ix]
  exact mul_one _

open Cert.GatedContext in
/-- For real inputs the context of group (b, p) at channel j is the sum over the group's rows of the key projections. -/
theorem v18_ix (hx : AllReal x) (hw : AllReal w) (hb : AllReal bq) (b : Fin 32) (p : Fin 4) (j : Fin 384) :
    val_main_v18 (F := Ideal) x w bq (ix3 b p j)
      = ∑ n : Fin 1024, proj (fun c => x (ix4 b p n c)) (fun c => w (ix2 c (keyCol j))) (bq (ix1 (keyCol j))) := by
  rw [val_main_v18_apply, val_main_cst_2_apply, Ideal.ofBits_def, Ideal.ofBits_zero_f32, zero_add]
  refine Finset.sum_congr rfl fun n _ => ?_
  rw [idx18_ix, v17_ix x w bq hx hw hb]

open Cert.GatedContext in
/-- For real inputs the gated row: the value projection clipped below at zero, times the group's context. -/
theorem v22_ix (hx : AllReal x) (hw : AllReal w) (hb : AllReal bq) (b : Fin 32) (p : Fin 4) (n : Fin 1024) (j : Fin 384) :
    val_main_v22 (F := Ideal) x w bq (ix4 b p n j)
      = max (proj (fun c => x (ix4 b p n c)) (fun c => w (ix2 c (valCol j))) (bq (ix1 (valCol j)))) 0
          * ∑ n' : Fin 1024, proj (fun c => x (ix4 b p n' c)) (fun c => w (ix2 c (keyCol j))) (bq (ix1 (keyCol j))) := by
  rw [val_main_v22_apply, val_main_v20_apply, val_main_v6_apply, val_main_call0_v0_apply, val_main_call0_cst_apply,
    val_main_v21_apply, val_main_v19_apply, idx6_ix, v3_ix, idx1921_ix, v18_ix x w bq hx hw hb, Ideal.ofBits_def,
    Ideal.ofBits_zero_f32]
  rfl

/-- For real input rows, fused weights and fused biases, the reference's result is the specification. -/
theorem ref_eq_G (wp : FVec Ideal S384x384 .f32) (bp : FVec Ideal S384 .f32)
    (hx : AllReal x) (hw : AllReal w) (hb : AllReal bq) :
    val_main_v26 (F := Ideal) x w bq wp bp = Cert.GatedContext.G x w bq wp bp := by
  funext i
  obtain ⟨b, p, n, d, rfl⟩ : ∃ (b : Fin 32) (p : Fin 4) (n : Fin 1024) (d : Fin 384), i = ix4 b p n d :=
    ⟨i 0, i 1, i 2, i 3, eq_ix4 i⟩
  have e1 : ∀ k : Fin 384, lidx_main_v23 (ix4 b p n d) k = ix4 b p n k := fun k =>
    funext fun a => by match a with | ⟨0, _⟩ => rfl | ⟨1, _⟩ => rfl | ⟨2, _⟩ => rfl | ⟨3, _⟩ => rfl
  have e2 : ∀ k : Fin 384, ridx_main_v23 (ix4 b p n d) k = ix2 k d := fun k =>
    funext fun a => by match a with | ⟨0, _⟩ => rfl | ⟨1, _⟩ => rfl
  have e3 : idx_main_v24 (idx_main_v25 (ix4 b p n d)) = ix1 d :=
    funext fun a => by match a with | ⟨0, _⟩ => rfl
  rw [val_main_v26_apply, val_main_v23_apply, val_main_v25_apply, val_main_v24_apply, e3]
  show _ = Cert.GatedContext.groupOut (fun n c => x (ix4 b p n c))
    (fun c j => w (ix2 c (Cert.GatedContext.keyCol j))) (fun c j => w (ix2 c (Cert.GatedContext.valCol j)))
    (fun j d => wp (ix2 j d)) (fun j => bq (ix1 (Cert.GatedContext.keyCol j)))
    (fun j => bq (ix1 (Cert.GatedContext.valCol j))) (fun d => bp (ix1 d)) n d
  unfold Cert.GatedContext.groupOut
  refine congrArg (· + bp (ix1 d)) (Finset.sum_congr rfl fun k _ => ?_)
  rw [e1, e2, v22_ix x w bq hx hw hb]

end Cert.ReferenceIdeal.RefValue

end
-- ==== Proof.Finite.lean ====
/-
  From the finiteness test to real arrays.

  The precondition is a program that answers one bit: the conjunction, over the five argument arrays, of
  "every entry has absolute value below +infinity". When the bit is 1 every conjunct is 1, and an array all of
  whose entries have absolute value below a bound has only real entries: the absolute value of either infinity
  is the top element, which is below nothing. The value proof needs this of the first three arrays only (the
  input rows, the fused weights, the fused biases): those feed the single-entry softmax, which is 1 at a real
  query and undefined arithmetic at an infinite one.
-/
import proofs.«181809_j78065325572222_2_alg».proof.Pre_finite_inputs
import proofs.«181809_j78065325572222_2_alg».proof.Proof.Gen.Pre_finite_inputs
import proofs.«181809_j78065325572222_2_alg».proof.Proof.LibAllReal
import Idealize.ShloMosaic.Lib.ReduceAll
import Idealize.ShloMosaic.Lib.ValueIdx

noncomputable section

namespace Cert.Proof.Finite

open Idealize.ShloMosaic Idealize.ShloMosaic.ValueIdx

/-- The scalar shape has one index: two indices are functions out of the empty set of axes. -/
instance subsingleton_scalar_idx : Subsingleton Cert.Pre_finite_inputs.S_.Idx :=
  ⟨fun _ _ => funext fun d => d.elim0⟩

/-- When the finiteness test answers 1, the input rows, the fused weights and the fused biases are real arrays:
    the answer is the conjunction of five all-reductions, each of which, being 1, says that every entry of its
    array has absolute value below the bound it is compared with. -/
theorem allReal_of_pre [Cert.Pre_finite_inputs.Facts]
    (a0 : FVec Ideal Cert.Pre_finite_inputs.S32x4x1024x384 .f32)
    (a1 : FVec Ideal Cert.Pre_finite_inputs.S384x769 .f32)
    (a2 : FVec Ideal Cert.Pre_finite_inputs.S769 .f32)
    (a3 : FVec Ideal Cert.Pre_finite_inputs.S384x384 .f32)
    (a4 : FVec Ideal Cert.Pre_finite_inputs.S384 .f32)
    (h : Cert.Pre_finite_inputs.fn (F := Ideal) a0 a1 a2 a3 a4 = fun _ => 1#1) :
    Cert.Lib.AllReal.AllReal a0 ∧ Cert.Lib.AllReal.AllReal a1 ∧ Cert.Lib.AllReal.AllReal a2 := by
  have h0 := congrFun h ix0
  dsimp only [Cert.Pre_finite_inputs.fn, Cert.Pre_finite_inputs.fn_part1] at h0
  -- the answer is ((((t0 ∧ t1) ∧ t2) ∧ t3) ∧ t4): peel the last two conjuncts, keep the first three
  obtain ⟨h1, -⟩ := IntOp.andi_eq_one.1 h0
  obtain ⟨h2, -⟩ := IntOp.andi_eq_one.1 h1
  obtain ⟨h3, e2⟩ := IntOp.andi_eq_one.1 h2
  obtain ⟨e0, e1⟩ := IntOp.andi_eq_one.1 h3
  exact ⟨Cert.Lib.AllReal.allReal_of_reduce_andi_abs_lt _ _ _ _ _ _ e0,
    Cert.Lib.AllReal.allReal_of_reduce_andi_abs_lt _ _ _ _ _ _ e1,
    Cert.Lib.AllReal.allReal_of_reduce_andi_abs_lt _ _ _ _ _ _ e2⟩

end Cert.Proof.Finite

end
-- ==== Proof.lean ====
/-
  The certificate of the gated context projection: the kernel, its idealization and the reference.

  Per group of 1024 rows of 384 channels the programs compute key and value projections of every row, sum the key
  projections over the group's rows, multiply each row's value projection, clipped below at zero, by that sum, and project
  the product once more (Proof/Spec.lean states this once, as `G` of the five argument arrays). The kernel does it four
  groups per grid point from weights the host lines slice out of the fused arrays; the reference does it from the fused arrays
  and multiplies every key by a softmax over a single entry. Over the extended reals that softmax is one exactly at a real
  query, so the equality of the two results uses the precondition: finite inputs are real arrays (Proof/Finite.lean), the
  reference on real arrays is `G` (Proof/RefValue.lean), and the kernel program's result is `G` on any arrays
  (Proof/BlockValue.lean: the body's stored value at an index; Proof/Entry.lean: the arrays the region finds;
  Proof/ArrayValue.lean: the result array whole; Proof/RunValue.lean: the run). The three frames are the generated frame runs
  and the reference's generated run; the idealization rewrote nothing.
-/
import proofs.«181809_j78065325572222_2_alg».proof.Defs
import proofs.«181809_j78065325572222_2_alg».proof.Proof.Gen.Kernel
import proofs.«181809_j78065325572222_2_alg».proof.Proof.Gen.Kernel.Skeleton
import proofs.«181809_j78065325572222_2_alg».proof.Proof.Gen.Kernel.Launch
import proofs.«181809_j78065325572222_2_alg».proof.Proof.Gen.Kernel.Points
import proofs.«181809_j78065325572222_2_alg».proof.Proof.Gen.Kernel.Frame
import proofs.«181809_j78065325572222_2_alg».proof.Proof.Gen.KernelIdeal
import proofs.«181809_j78065325572222_2_alg».proof.Proof.Gen.KernelIdeal.Skeleton
import proofs.«181809_j78065325572222_2_alg».proof.Proof.Gen.KernelIdeal.Launch
import proofs.«181809_j78065325572222_2_alg».proof.Proof.Gen.KernelIdeal.Points
import proofs.«181809_j78065325572222_2_alg».proof.Proof.Gen.KernelIdeal.Frame
import proofs.«181809_j78065325572222_2_alg».proof.Proof.Gen.ReferenceIdeal
import proofs.«181809_j78065325572222_2_alg».proof.Proof.Gen.ReferenceIdeal.Run
import proofs.«181809_j78065325572222_2_alg».proof.Proof.Gen.ReferenceIdeal.Read
import proofs.«181809_j78065325572222_2_alg».proof.Proof.Gen.Pre_finite_inputs
import proofs.«181809_j78065325572222_2_alg».proof.Proof.RunValue
import proofs.«181809_j78065325572222_2_alg».proof.Proof.RefValue
import proofs.«181809_j78065325572222_2_alg».proof.Proof.Finite
import Idealize.ShloMosaic.Adequacy
import Idealize.ShloMosaic.Init

noncomputable section

namespace Cert.Proof

open Idealize.ShloMosaic Idealize.ShloMosaic.TcCoe Idealize.SL.Sem

/-- The kernel program runs and leaves its arguments as they were: the generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, which are finite, both idealized programs end with the specification of the
    arguments as their result: the kernel program on any arrays, the reference because finite arrays are real and on real
    arrays its softmax over a single entry is one. -/
theorem algebraic : Cert.algebraic_KernelIdeal_ReferenceIdeal := by
  intro m ρ m' ρ' hpre hagree
  refine ⟨fun c => Cert.GatedContext.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2]
  obtain ⟨hx, hw, hb⟩ := Cert.Proof.Finite.allReal_of_pre _ _ _ _ _ (hpre c)
  exact Cert.ReferenceIdeal.RefValue.ref_eq_G _ _ _ _ _ hx hw hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
